-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_arg9 : FVec F S128x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128x64 .f32) (main_arg8 : FVec F S64 .f32) (main_arg9 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S128 .f32) (main_arg7 : FVec F S128x64 .f32) (main_arg8 : FVec F S64 .f32) (main_arg9 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 78
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .f32⟩
  | .hbm, ⟨15, _⟩ => ⟨S600000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .f32⟩
  | .hbm, ⟨73, _⟩ => ⟨S50000x128, .f32⟩
  | .hbm, ⟨74, _⟩ => ⟨S600000x1, .i32⟩
  | .hbm, ⟨75, _⟩ => ⟨S50000x128, .f32⟩
  | .hbm, ⟨76, _⟩ => ⟨S1x64, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S128x64, .f32⟩
  | .local _ .vmem, ⟨26, _⟩ => ⟨S1x64, .f32⟩
  | .local _ .vmem, ⟨27, _⟩ => ⟨S128x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_c_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S128x64, .f32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .f32⟩
  | .hbm, ⟨23, _⟩ => ⟨S_, .f32⟩
  | .hbm, ⟨24, _⟩ => ⟨S50000x128, .f32⟩
  | .hbm, ⟨25, _⟩ => ⟨S600000x1, .i32⟩
  | .hbm, ⟨26, _⟩ => ⟨S50000x128, .f32⟩
  | .hbm, ⟨27, _⟩ => ⟨S_, .f32⟩
  | .hbm, ⟨28, _⟩ => ⟨S600000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S600000, .i32⟩
  | .hbm, ⟨79, _⟩ => ⟨S600000, .i1⟩
  | .hbm, ⟨80, _⟩ => ⟨S_, .i32⟩
  | .hbm, ⟨81, _⟩ => ⟨S600000, .i32⟩
  | .hbm, ⟨82, _⟩ => ⟨S600000, .i32⟩
  | .hbm, ⟨83, _⟩ => ⟨S600000, .i32⟩
  | .hbm, ⟨84, _⟩ => ⟨S600000x1, .i32⟩
  | .hbm, ⟨85, _⟩ => ⟨S600000x128, .f32⟩
  | .hbm, ⟨86, _⟩ => ⟨S_, .f32⟩
  | .hbm, ⟨87, _⟩ => ⟨S50000x128, .f32⟩
  | .hbm, ⟨88, _⟩ => ⟨S600000x1, .i32⟩
  | .hbm, ⟨89, _⟩ => ⟨S50000x128, .f32⟩
  | .hbm, ⟨90, _⟩ => ⟨S_, .f32⟩
  | .hbm, ⟨91, _⟩ => ⟨S600000, .f32⟩
  | .hbm, ⟨92, _⟩ => ⟨S_, .f32⟩
  | .hbm, ⟨93, _⟩ => ⟨S50000, .f32⟩
  | .hbm, ⟨94, _⟩ => ⟨S600000x1, .i32⟩
  | .hbm, ⟨95, _⟩ => ⟨S50000, .f32⟩
  | .hbm, ⟨96, _⟩ => ⟨S_, .f32⟩
  | .hbm, ⟨97, _⟩ => ⟨S50000, .f32⟩
  | .hbm, ⟨98, _⟩ => ⟨S50000, .f32⟩
  | .hbm, ⟨99, _⟩ => ⟨S50000x1, .f32⟩
  | .hbm, ⟨100, _⟩ => ⟨S50000x128, .f32⟩
  | .hbm, ⟨101, _⟩ => ⟨S50000x128, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | .hbm, ⟨106, _⟩ => ⟨S50000x64, .f32⟩
  | .hbm, ⟨107, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call0_cst : Ref sig .tc := ⟨.hbm, 74, rfl⟩
abbrev main_call0_v0 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel's run with every buffer named.

  The program is three kernel regions among stretches of host operations. Its run from the launch memory ends, on
  every core, with every unscoped buffer at the contents `W6`: the fold of the host stretches and of the regions'
  write-backs over the launch memory. This is the launch of the generated frame with its last step kept general — where the
  frame reads only the argument buffers back, here every unscoped buffer is read, the result buffer among them.
-/
import proofs.«167860_j85383949845212_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core at
    the fold `W6` of the program over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Whole

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«167860_j85383949845212_2_alg».proof.Proof.LibDense
import proofs.«167860_j85383949845212_2_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«167860_j85383949845212_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.LibSageLayer.lean ====
/-
  Two mean-aggregating graph layers and a linear head, on the extended reals, at any extents.

  A layer takes, for every node (a row), the sum `a` of its in-neighbours' feature rows, the node's own feature row
  `x`, and a per-node factor `s` (the reciprocal of the in-degree, at least one).  Its pre-activation is
  `(a scaled row by row by s) · wl + x · wr`; the hidden layer adds a one-row bias and rectifies, the output layer adds
  its bias, multiplies by the head's weights and adds the head's bias.  Every entry of a layer's result depends on the
  node's own rows of `a`, `x` and `s` only, which is what lets a block of rows be computed from a block of rows.

  The reference divides the aggregate by the degree where the kernel multiplies by its reciprocal: on the extended reals
  `a / c = a · c⁻¹` and `1 / c = c⁻¹` whenever `c ≠ 0`, and a degree clamped below by one is never zero, so the two
  agree at every extended real `a`, infinite ones included.
-/
import proofs.«167860_j85383949845212_2_alg».proof.Proof.LibRowScale
import proofs.«167860_j85383949845212_2_alg».proof.Proof.LibBiasRow
import Idealize.ShloMosaic.Lib.IdealHost

noncomputable section

open scoped BigOperators

namespace Cert.Sage

open Idealize.ShloMosaic Idealize.ShloMosaic.ValueIdx Cert.Dense Cert.RowScale Cert.BiasRow

/-- The pre-activation: the row-scaled aggregate times `wl` plus the self term times `wr`. -/
def pre {M K N : ℕ} (a x : Mat M K) (s : Mat M 1) (wl wr : Mat K N) : Mat M N :=
  fun i => mm (scaleRows a s) wl i + mm x wr i

/-- The hidden layer: the pre-activation plus a one-row bias, rectified. -/
def hidden {M K N : ℕ} (a x : Mat M K) (s : Mat M 1) (wl wr : Mat K N) (b : Mat 1 N) : Mat M N :=
  reluBias (pre a x s wl wr) b

/-- The output layer followed by the linear head. -/
def head {M K N P : ℕ} (a h : Mat M K) (s : Mat M 1) (wl wr : Mat K N) (b : Mat 1 N) (wfc : Mat N P) (bfc : Mat 1 P) :
    Mat M P :=
  addRow (mm (addRow (pre a h s wl wr) b) wfc) bfc

/-- A row of the pre-activation depends on the same row of the aggregate, of the features and of the factor. -/
theorem pre_rows {M M' K N : ℕ} (a x : Mat M K) (s : Mat M 1) (a' x' : Mat M' K) (s' : Mat M' 1) (wl wr : Mat K N)
    (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    pre a' x' s' wl wr (ix2 p' q) = pre a x s wl wr (ix2 p q) := by
  show mm (scaleRows a' s') wl (ix2 p' q) + mm x' wr (ix2 p' q) = mm (scaleRows a s) wl (ix2 p q) + mm x wr (ix2 p q)
  simp only [mm_apply, scaleRows_apply, ha, hx, hs]

theorem hidden_rows {M M' K N : ℕ} (a x : Mat M K) (s : Mat M 1) (a' x' : Mat M' K) (s' : Mat M' 1) (wl wr : Mat K N)
    (b : Mat 1 N) (p' : Fin M') (p : Fin M) (q : Fin N)
    (ha : ∀ k : Fin K, a' (ix2 p' k) = a (ix2 p k)) (hx : ∀ k : Fin K, x' (ix2 p' k) = x (ix2 p k))
    (hs : s' (ix2 p' (0 : Fin 1)) = s (ix2 p (0 : Fin 1))) :
    hidden a' x' s' wl wr b (ix2 p' q) = hidden a x s wl wr b (ix2 p q) := by
  show max (pre a' x' s' wl wr (ix2 p' q) + b (ix2 (0 : Fin 1) q)) 0 = max (pre a x s wl wr (ix2 p q) + b (ix2 (0 : Fin 1) q)) 0
  rw [pre_rows a x s a' x' s' wl wr p' p q ha hx hs]

theorem head_rows {M M' K N P : ℕ} (a h : Mat M K) (s : Mat M 1) (a' h' : Mat M' K) (s' : Mat M' 1) (wl wr : Mat K N)
    (b : Mat 1 N) (wfc : Mat N P) (bfc : Mat 1 P) (p' : Fin M') (p : Fin M) (r : Fin P)
    (ha : ∀ k : Fin K, a' (ix2 p' k) = a (ix2 p k)) (hh : ∀ k : Fin K, h' (ix2 p' k) = h (ix2 p k))
    (hs : s' (ix2 p' (0 : Fin 1)) = s (ix2 p (0 : Fin 1))) :
    head a' h' s' wl wr b wfc bfc (ix2 p' r) = head a h s wl wr b wfc bfc (ix2 p r) := by
  show mm (addRow (pre a' h' s' wl wr) b) wfc (ix2 p' r) + bfc (ix2 (0 : Fin 1) r)
    = mm (addRow (pre a h s wl wr) b) wfc (ix2 p r) + bfc (ix2 (0 : Fin 1) r)
  rw [mm_apply, mm_apply]
  refine congrArg (· + bfc (ix2 (0 : Fin 1) r)) (Finset.sum_congr rfl fun k _ => ?_)
  rw [addRow_apply, addRow_apply, pre_rows a h s a' h' s' wl wr p' p k ha hh hs]

/-- Multiplying by the reciprocal is dividing, at a divisor that is not zero. -/
theorem mul_recip (a c : EReal) (hc : c ≠ 0) : a * Ideal.div 1 c = Ideal.div a c := by
  rw [Ideal.div, Ideal.div, if_neg hc, if_neg hc, one_mul]

/-- A quantity clamped below by one is not zero. -/
theorem max_one_ne_zero (x : EReal) : max x 1 ≠ 0 :=
  (lt_of_lt_of_le zero_lt_one (le_max_right x 1)).ne'

/-- The host's form of the mean: the aggregate divided by the degree vector broadcast to a column and along the rows is
    the aggregate's rows scaled by the column of reciprocals, when no degree is zero. -/
theorem hostDivRows {M N : ℕ} (G : FVec Ideal ⟨2, ![M, N]⟩ .f32) (d one : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hd : ∀ i, d i ≠ 0) (hone : ∀ i, one i = 1) :
    Host.divf (F := Ideal) G (broadcastInDim ⟨2, ![M, N]⟩ ![0, 1] h2 (broadcastInDim ⟨2, ![M, 1]⟩ ![0] h1 d))
      = scaleRows G (col (Host.divf (F := Ideal) one d)) := by
  funext i
  obtain ⟨p, q, rfl⟩ : ∃ (p : Fin M) (q : Fin N), i = ix2 p q := ⟨i 0, i 1, eq_ix2 i⟩
  show Ideal.div (G (ix2 p q)) (broadcastInDim ⟨2, ![M, N]⟩ ![0, 1] h2 (broadcastInDim ⟨2, ![M, 1]⟩ ![0] h1 d) (ix2 p q))
    = G (ix2 p q) * Ideal.div (one (ix1 p)) (d (ix1 p))
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 d (ix2 p (0 : Fin 1)) (ix1 p) (fun a => by
        match a with
        | ⟨0, _⟩ =>
          show p.val = if M = 1 then 0 else p.val
          split
          · have := p.isLt; omega
          · rfl),
    hone, mul_recip _ _ (hd _)]

end Cert.Sage

end
-- ==== Proof.LibSageDense.lean ====
/-
  One dense step of a mean-aggregating graph layer, on the extended reals, at any extents.

  The step takes the mean `A` of the neighbours' rows, the nodes' own rows `X`, two weight matrices and a one-row bias,
  and forms `A · wl + X · wr + b` (`lin`), or that rectified (`hid`).  The kernel spells it on the matrix unit — both
  products into zero accumulators, summed, then the bias row broadcast along the rows and added — and the host spells it
  with the bias added BEFORE the second product: `(A · wl + b) + X · wr`.  Addition of extended reals is commutative and
  associative, so the two agree at every entry, infinite ones included.  An entry `(p, q)` of the result depends on row
  `p` of `A` and of `X`, on column `q` of the weights and on entry `q` of the bias only, which is what lets a block of rows
  be computed from a block of rows.

  The mean: the kernel multiplies the summed rows by the reciprocal of the clamped degree, the host divides by the clamped
  degree.  A degree clamped below by one is never zero, and off zero a quotient is the product with the inverse, so both
  are the rows scaled by the column of reciprocals.
-/
import proofs.«167860_j85383949845212_2_alg».proof.Proof.LibSageLayer

noncomputable section

open scoped BigOperators

namespace Cert.SageDense

open Idealize.ShloMosaic Idealize.ShloMosaic.ValueIdx Cert.Dense Cert.RowScale Cert.BiasRow

/-- The two products summed: `A · wl + X · wr`. -/
def comb {M K N : ℕ} (A X : Mat M K) (wl wr : Mat K N) : Mat M N := fun i => mm A wl i + mm X wr i

/-- The output step: the two products plus a one-row bias. -/
def lin {M K N : ℕ} (A X : Mat M K) (wl wr : Mat K N) (b : Mat 1 N) : Mat M N := addRow (comb A X wl wr) b

/-- The hidden step: the same, rectified. -/
def hid {M K N : ℕ} (A X : Mat M K) (wl wr : Mat K N) (b : Mat 1 N) : Mat M N := reluBias (comb A X wl wr) b

/-- An entry of the summed products depends on one row of each left operand and one column of each weight matrix. -/
theorem comb_at {M M' K N N' : ℕ} (A X : Mat M K) (wl wr : Mat K N) (A' X' : Mat M' K) (wl' wr' : Mat K N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i))) :
    comb A' X' wl' wr' j = comb A X wl wr i := by
  unfold comb
  rw [Cert.BiasRow.mm_at A wl A' wl' j i hA hl, Cert.BiasRow.mm_at X wr X' wr' j i hX hr]

theorem lin_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    lin A' X' wl' wr' b' j = lin A X wl wr b i :=
  Cert.BiasRow.addRow_at _ b _ b' j i (comb_at A X wl wr A' X' wl' wr' j i hA hX hl hr) hb

theorem hid_at {M M' K N N' : ℕ} (A X : Mat M K) (wl wr : Mat K N) (b : Mat 1 N) (A' X' : Mat M' K) (wl' wr' : Mat K N')
    (b' : Mat 1 N') (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    hid A' X' wl' wr' b' j = hid A X wl wr b i :=
  Cert.BiasRow.reluBias_at _ b _ b' j i (comb_at A X wl wr A' X' wl' wr' j i hA hX hl hr) hb

/-! ## The matrix unit's spelling -/

/-- Both products on the matrix unit into zero accumulators, summed; the operands' change of float format is the
    identity on the extended reals. -/
theorem vecComb {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (lt : FTy.bf16.bits < FTy.f32.bits) :
    addf (matmul (F := Ideal) D none (truncf .bf16 A lt) (truncf .bf16 wl lt) (constant ⟨2, ![M, N]⟩ .f32 0x00000000#32))
        (matmul (F := Ideal) D none (truncf .bf16 X lt) (truncf .bf16 wr lt) (constant ⟨2, ![M, N]⟩ .f32 0x00000000#32))
      = comb A X wl wr := by
  rw [matmul_zero_eq_mm D h1 h2 h3 h4 h5 h6, matmul_zero_eq_mm D h1 h2 h3 h4 h5 h6]
  rfl

theorem vecLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)
      = lin A X wl wr b := by
  rw [vecComb D h1 h2 h3 h4 h5 h6 A X wl wr lt]
  exact vecAddRow (comb A X wl wr) b hb

theorem vecHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨2, ![1, N]⟩ .f32)
    (lt : FTy.bf16.bits < FTy.f32.bits) (hb : (⟨2, ![1, N]⟩ : Shape).Broadcasts ⟨2, ![M, N]⟩) :
    maximumf (addf (addf (matmul (F := Ideal) D none (truncf .bf16 A lt) (truncf .bf16 wl lt) (constant ⟨2, ![M, N]⟩ .f32 0x00000000#32))
          (matmul (F := Ideal) D none (truncf .bf16 X lt) (truncf .bf16 wr lt) (constant ⟨2, ![M, N]⟩ .f32 0x00000000#32)))
        (broadcastTo ⟨2, ![M, N]⟩ b hb)) (broadcast ⟨2, ![M, N]⟩ (Scalar.ofBits (F := Ideal) .f32 0x00000000#32))
      = hid A X wl wr b := by
  rw [vecComb D h1 h2 h3 h4 h5 h6 A X wl wr lt]
  exact vecReluBias (comb A X wl wr) b hb

/-! ## The host's spelling -/

/-- The host adds the bias before the second product; the sum is the same. -/
theorem hostLin {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1]) :
    addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr)
      = lin A X wl wr (row b) := by
  rw [hostDot_eq_mm D h1 h2 h3 h4 h5 h6 none A wl, hostDot_eq_mm D h1 h2 h3 h4 h5 h6 none X wr,
    hostAddRow (mm A wl) b hb1 hb2]
  funext i
  show (mm A wl i + row b (ix2 (0 : Fin 1) (c1 i))) + mm X wr i = (mm A wl i + mm X wr i) + row b (ix2 (0 : Fin 1) (c1 i))
  exact add_right_comm _ _ _

/-- The maximum with a scalar zero broadcast everywhere is the maximum with zero at every entry. -/
theorem hostRelu {s : Shape} (Y : FVec Ideal s .f32) (h0 : (⟨0, ![]⟩ : Shape).BroadcastsInDim s ![]) :
    maximumf Y (broadcastInDim s ![] h0 (constant (F := Ideal) ⟨0, ![]⟩ .f32 0x00000000#32)) = fun i => max (Y i) 0 := by
  funext i
  show max (Y i) (broadcastInDim s ![] h0 (constant (F := Ideal) ⟨0, ![]⟩ .f32 0x00000000#32) i) = _
  rw [broadcastInDim_apply ![] h0 _ i ix0 (fun a => a.elim0)]
  show max (Y i) (Ideal.ofBits .f32 0x00000000#32) = _
  rw [Ideal.ofBits_zero_f32]

theorem hostHid {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (A X : FVec Ideal ⟨2, ![M, K]⟩ .f32) (wl wr : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) D none A wl)
          (broadcastInDim ⟨2, ![M, N]⟩ ![0, 1] hb2 (broadcastInDim ⟨2, ![1, N]⟩ ![1] hb1 b)))
        (Host.dotGeneral (F := Ideal) D none X wr))
        (broadcastInDim ⟨2, ![M, N]⟩ ![] h0 (constant (F := Ideal) ⟨0, ![]⟩ .f32 0x00000000#32))
      = hid A X wl wr (row b) := by
  rw [hostLin D h1 h2 h3 h4 h5 h6 A X wl wr b hb1 hb2, hostRelu]
  rfl

/-! ## The mean -/

/-- The rows of `G` scaled by the reciprocals of the clamped degrees. -/
def meanRows {M N : ℕ} (G : FVec Ideal ⟨2, ![M, N]⟩ .f32) (one d : FVec Ideal ⟨1, ![M]⟩ .f32) : Mat M N :=
  scaleRows G (col (Host.divf (F := Ideal) one (maximumf (F := Ideal) d one)))

/-- The kernel's form: the summed rows times the reciprocal of the clamped degree, broadcast to a column and along
    the rows. -/
theorem mulMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1
        (Host.divf (F := Ideal) one (maximumf (F := Ideal) d one))))
      = meanRows G one d :=
  hostScaleRows G _ h1 h2

/-- The host's form: the summed rows divided by the clamped degree, when the clamp is at one. -/
theorem divMean {M N : ℕ} (G : FVec Ideal ⟨2, ![M, N]⟩ .f32) (one d : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (hone : ∀ i, one i = 1) :
    Host.divf (F := Ideal) G (broadcastInDim ⟨2, ![M, N]⟩ ![0, 1] h2 (broadcastInDim ⟨2, ![M, 1]⟩ ![0] h1
        (maximumf (F := Ideal) d one)))
      = meanRows G one d :=
  Cert.Sage.hostDivRows G (maximumf (F := Ideal) d one) one h1 h2
    (fun i => by
      show max (d i) (one i) ≠ 0
      rw [hone i]
      exact Cert.Sage.max_one_ne_zero (d i))
    hone

/-- A scalar one broadcast to a vector is one at every entry. -/
theorem bcastOne {s : Shape} (h0 : (⟨0, ![]⟩ : Shape).BroadcastsInDim s ![]) (i : s.Idx) :
    broadcastInDim s ![] h0 (constant (F := Ideal) ⟨0, ![]⟩ .f32 0x3F800000#32) i = 1 := by
  rw [broadcastInDim_apply ![] h0 _ i ix0 (fun a => a.elim0)]
  show Ideal.ofBits .f32 0x3F800000#32 = 1
  exact Ideal.ofBits_one_f32

end Cert.SageDense

end
-- ==== Proof.LibSageNet.lean ====
/-
  Two mean-aggregating graph layers and a two-step linear head, as whole-array functions on the extended reals.

  A layer takes the sum `A` of every node's in-neighbours' rows, the nodes' own rows `X`, a per-node factor `s` (one
  column: the reciprocal of the in-degree clamped below by one), two weight matrices and a one-row bias, and forms
  `(A scaled row by row by s) · wl + X · wr + b`.  The network applies a layer to the features, aggregates the result
  again, applies a second layer, and then two affine maps `· w + c` in a row.  The aggregation is a parameter here: the
  network is stated for any two maps on whole arrays, since both programs aggregate by the same gather and segment sum
  and nothing of it needs opening.

  Entry `(p, r)` of a layer, and of the second layer followed by the head, depends on row `p` of the aggregate, of
  the features and of the factor only: that is what lets a block of rows be computed from a block of rows.
-/
import proofs.«167860_j85383949845212_2_alg».proof.Proof.LibSageDense

noncomputable section

open scoped BigOperators

namespace Cert.SageNet

open Idealize.ShloMosaic Idealize.ShloMosaic.ValueIdx Cert.Dense Cert.RowScale Cert.BiasRow Cert.SageDense

/-- One layer: the aggregate's rows scaled by the per-node factor, times `wl`, plus the features times `wr`, plus
    the bias row. -/
def layer {M K N : ℕ} (A X : Mat M K) (s : Mat M 1) (wl wr : Mat K N) (b : Mat 1 N) : Mat M N :=
  lin (scaleRows A s) X wl wr b

/-- A layer followed by the two affine maps of the head. -/
def top {M K N P Q : ℕ} (A H : Mat M K) (s : Mat M 1) (wl wr : Mat K N) (b : Mat 1 N) (w1 : Mat N P) (c1' : Mat 1 P)
    (w2 : Mat P Q) (c2 : Mat 1 Q) : Mat M Q :=
  addRow (mm (addRow (mm (layer A H s wl wr b) w1) c1') w2) c2

/-- The whole network over two aggregation maps. -/
def net {M K N P Q : ℕ} (agg1 : Mat M K → Mat M K) (agg2 : Mat M N → Mat M N) (s : Mat M 1) (x : Mat M K)
    (wl1 wr1 : Mat K N) (b1 : Mat 1 N) (wl2 wr2 : Mat N N) (b2 : Mat 1 N) (w1 : Mat N P) (c1' : Mat 1 P)
    (w2 : Mat P Q) (c2 : Mat 1 Q) : Mat M Q :=
  top (agg2 (layer (agg1 x) x s wl1 wr1 b1)) (layer (agg1 x) x s wl1 wr1 b1) s wl2 wr2 b2 w1 c1' w2 c2

/-- A layer's entry depends on one row of the aggregate, of the features and of the factor. -/
theorem layer_rows {M M' K N : ℕ} (A X : Mat M K) (s : Mat M 1) (A' X' : Mat M' K) (s' : Mat M' 1)
    (wl wr : Mat K N) (b : Mat 1 N) (p' : Fin M') (p : Fin M) (q : Fin N)
    (hA : ∀ k : Fin K, A' (ix2 p' k) = A (ix2 p k)) (hX : ∀ k : Fin K, X' (ix2 p' k) = X (ix2 p k))
    (hs : s' (ix2 p' (0 : Fin 1)) = s (ix2 p (0 : Fin 1))) :
    layer A' X' s' wl wr b (ix2 p' q) = layer A X s wl wr b (ix2 p q) := by
  show (mm (scaleRows A' s') wl (ix2 p' q) + mm X' wr (ix2 p' q)) + b (ix2 (0 : Fin 1) q)
    = (mm (scaleRows A s) wl (ix2 p q) + mm X wr (ix2 p q)) + b (ix2 (0 : Fin 1) q)
  simp only [mm_apply, scaleRows_apply, hA, hX, hs]

/-- The second layer and the head: an entry depends on one row of the aggregate, of the hidden rows and of the factor. -/
theorem top_rows {M M' K N P Q : ℕ} (A H : Mat M K) (s : Mat M 1) (A' H' : Mat M' K) (s' : Mat M' 1)
    (wl wr : Mat K N) (b : Mat 1 N) (w1 : Mat N P) (c1' : Mat 1 P) (w2 : Mat P Q) (c2 : Mat 1 Q)
    (p' : Fin M') (p : Fin M) (r : Fin Q)
    (hA : ∀ k : Fin K, A' (ix2 p' k) = A (ix2 p k)) (hH : ∀ k : Fin K, H' (ix2 p' k) = H (ix2 p k))
    (hs : s' (ix2 p' (0 : Fin 1)) = s (ix2 p (0 : Fin 1))) :
    top A' H' s' wl wr b w1 c1' w2 c2 (ix2 p' r) = top A H s wl wr b w1 c1' w2 c2 (ix2 p r) := by
  show mm (addRow (mm (layer A' H' s' wl wr b) w1) c1') w2 (ix2 p' r) + c2 (ix2 (0 : Fin 1) r)
    = mm (addRow (mm (layer A H s wl wr b) w1) c1') w2 (ix2 p r) + c2 (ix2 (0 : Fin 1) r)
  rw [mm_apply, mm_apply]
  refine congrArg (· + c2 (ix2 (0 : Fin 1) r)) (Finset.sum_congr rfl fun k _ => ?_)
  rw [addRow_apply, addRow_apply, mm_apply, mm_apply]
  refine congrArg (fun t => (t + c1' (ix2 (0 : Fin 1) k)) * w2 (ix2 k r)) (Finset.sum_congr rfl fun k' _ => ?_)
  rw [layer_rows A H s A' H' s' wl wr b p' p k' hA hH hs]

end Cert.SageNet

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.LibMeanAffine.lean ====
import Mathlib.Data.EReal.Inv
import Mathlib.Algebra.BigOperators.Group.Finset.Basic
import Idealize.ShloMosaic.PureOps.Ideal

/-!
# The mean of affine images is the affine image of the mean

A graph layer averages, over the finite nonempty set `H` of edges arriving at a node, the messages of their
source nodes.  Applying the affine map `row ↦ (∑ l, row l · W l) + b` to every message before averaging gives
the same value as averaging the raw rows and applying the affine map once afterwards:

  `(∑_{e∈H} ((∑_l x e l · W l) + b)) / |H| = (∑_l ((∑_{e∈H} x e l) / |H|) · W l) + b`,

because `∑_{e∈H} ((∑_l x e l · W l) + b) = (∑_l (∑_{e∈H} x e l) · W l) + |H| · b` and `|H| ≥ 1`, so that
`max(|H|, 1) = |H| ≠ 0`.  On the extended reals distributivity fails at the infinities, so the data enter as
coercions of real numbers; every expression is then the coercion of a real expression and the identity is
proved over `ℝ`.  The quotient is the total quotient `Ideal.div`, which off a zero divisor is multiplication
by the inverse.
-/

noncomputable section

namespace Cert.MeanAffine

open Idealize.ShloMosaic

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a sum of ones over `H` is the cardinality of `H`. -/
theorem count_eq {ε : Type*} (H : Finset ε) :
    (0 : EReal) + ∑ _e ∈ H, (1 : EReal) = ((H.card : ℝ) : EReal) := by
  rw [zero_add, ← EReal.coe_one, ← coe_sum, Finset.sum_const, nsmul_eq_mul, mul_one]

/-- A nonempty set has at least one element, so clamping its cardinality below by one changes nothing. -/
theorem max_count {ε : Type*} {H : Finset ε} (hH : H.Nonempty) :
    max ((H.card : ℝ) : EReal) 1 = ((H.card : ℝ) : EReal) := by
  apply max_eq_left
  have h1 : (1 : ℝ) ≤ (H.card : ℝ) := by exact_mod_cast Finset.one_le_card.mpr hH
  exact_mod_cast h1

/-- A family of extended reals none of which is infinite is the coercion of a family of reals. -/
theorem exists_real {ι : Type*} (f : ι → EReal) (h : ∀ i, f i ≠ ⊤ ∧ f i ≠ ⊥) :
    ∃ r : ι → ℝ, ∀ i, f i = (r i : EReal) :=
  ⟨fun i => (f i).toReal, fun i => (EReal.coe_toReal (h i).1 (h i).2).symm⟩

/-- The identity over the reals: dividing the sum of the affine images by `c = |H|` is the affine image of the
    sums divided by `c`. -/
theorem real_mean_affine {ε : Type*} {n : ℕ} (H : Finset ε) (hc : (H.card : ℝ) ≠ 0)
    (x : ε → Fin n → ℝ) (W : Fin n → ℝ) (b : ℝ) :
    (∑ e ∈ H, ((∑ l : Fin n, x e l * W l) + b)) * (1 / (H.card : ℝ))
      = (∑ l : Fin n, (∑ e ∈ H, x e l) * (1 / (H.card : ℝ)) * W l) + b := by
  rw [Finset.sum_add_distrib, Finset.sum_const, nsmul_eq_mul, Finset.sum_comm, add_mul]
  congr 1
  · rw [Finset.sum_mul]
    refine Finset.sum_congr rfl fun l _ => ?_
    rw [← Finset.sum_mul]
    ring
  · field_simp

/-- The mean over a nonempty edge set of the affine images of real rows equals the affine image of the
    mean row, with the total quotient and the count clamped below by one. -/
theorem mean_affine {ε : Type*} {n : ℕ} (H : Finset ε) (hH : H.Nonempty) (x : ε → Fin n → ℝ)
    (W : Fin n → ℝ) (b : ℝ) :
    Ideal.div ((0 : EReal) + ∑ e ∈ H, ((∑ l : Fin n, (x e l : EReal) * (W l : EReal)) + (b : EReal)))
        (max ((0 : EReal) + ∑ _e ∈ H, (1 : EReal)) 1)
      = (∑ l : Fin n, Ideal.div ((0 : EReal) + ∑ e ∈ H, (x e l : EReal))
          (max ((0 : EReal) + ∑ _e ∈ H, (1 : EReal)) 1) * (W l : EReal)) + (b : EReal) := by
  have hc : (H.card : ℝ) ≠ 0 := by exact_mod_cast (Finset.card_pos.mpr hH).ne'
  rw [count_eq, max_count hH]
  simp only [Ideal.div_coe hc, zero_add, ← EReal.coe_mul, ← coe_sum, ← EReal.coe_add]
  rw [real_mean_affine H hc]

/-- The same identity with the edge set given as the edges of a finite type that satisfy a predicate. -/
theorem mean_affine_filter {ε : Type*} {n : ℕ} [Fintype ε] [DecidableEq ε] (P : ε → Prop) [DecidablePred P]
    (hP : (Finset.univ.filter P).Nonempty) (x : ε → Fin n → ℝ) (W : Fin n → ℝ) (b : ℝ) :
    Ideal.div ((0 : EReal) + ∑ e ∈ Finset.univ.filter P,
          ((∑ l : Fin n, (x e l : EReal) * (W l : EReal)) + (b : EReal)))
        (max ((0 : EReal) + ∑ _e ∈ Finset.univ.filter P, (1 : EReal)) 1)
      = (∑ l : Fin n, Ideal.div ((0 : EReal) + ∑ e ∈ Finset.univ.filter P, (x e l : EReal))
          (max ((0 : EReal) + ∑ _e ∈ Finset.univ.filter P, (1 : EReal)) 1) * (W l : EReal)) + (b : EReal) :=
  mean_affine (Finset.univ.filter P) hP x W b

end Cert.MeanAffine
-- ==== Proof.LibGcnStats.lean ====
/-
  The algebra on the extended reals that joins two ways of writing a normalised graph convolution followed by
  batch statistics.

  First half. With `c = 1/√deg` the reciprocal square root of a node's degree `deg = 1 + (number of arriving edges)`,
  one program computes `c · (∑ₑ t e · d e + h · c) + b` and the other `∑ₑ t e · (d e · c) + h · (1/deg) + b`. They agree
  because `c` is a nonnegative finite number — for such a factor multiplication distributes over any sum of extended
  reals — and `c · c = 1/deg`. No finiteness of the messages `t e` or of `h` is needed.

  Second half. The mean of `N = A·B` numbers summed block by block is the mean of all of them, and the one-pass
  variance `max (E[y²] − μ², 0)` equals the two-pass variance `E[(y − μ)²]` when every `y` is a real number: both
  are coercions of real expressions, `∑ (y − μ)² = ∑ y² − N μ²` for `μ = (∑ y)/N`, and the common value is nonnegative.
-/
import Idealize.ShloMosaic.PureOps.Ideal
import Idealize.ShloMosaic.PureOps.Ideal.Laws
import proofs.«167860_j85383949845212_2_alg».proof.Proof.LibFoldSum
import proofs.«167860_j85383949845212_2_alg».proof.Proof.LibMeanAffine

noncomputable section

namespace Cert.GcnStats

open Idealize.ShloMosaic

/-! ### Extended reals that are real numbers -/

/-- An extended real that is the coercion of a real number. -/
def IsReal (a : EReal) : Prop := ∃ r : ℝ, a = (r : EReal)

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem isReal_zero : IsReal 0 := ⟨0, EReal.coe_zero.symm⟩

theorem isReal_one : IsReal 1 := ⟨1, EReal.coe_one.symm⟩

theorem isReal_coe (r : ℝ) : IsReal (r : EReal) := ⟨r, rfl⟩

/-- A finite sum of real numbers is a real number. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ### Two literals -/

/-- The pattern of `1.0` denotes the number one. -/
theorem ofBits_one : Ideal.ofBits .f32 0x3F800000#32 = (1 : EReal) := by
  simp [Ideal.ofBits, Ideal.ieee, -EReal.coe_mul]; norm_num

/-- The pattern of `100000.0`: exponent field 143, significand `2^23 + 0x435000 = 12800000`, and
    `12800000 · 2^(143 − 127 − 23) = 100000`. -/
theorem ofBits_1e5 : Ideal.ofBits .f32 0x47C35000#32 = ((100000 : ℝ) : EReal) := by
  simp [Ideal.ofBits, Ideal.ieee, -EReal.coe_mul]; norm_num

/-! ### The degree normalisation -/

/-- The degree `1 + (number of arriving edges)` is a positive real, so its reciprocal square root `c` is a nonnegative
    real number, `1/deg` is a real number, and `c · c = 1/deg`. -/
theorem deg_facts {ι : Type*} (S : Finset ι) (deg : EReal) (hdeg : deg = (0 + ∑ _e ∈ S, (1 : EReal)) + 1) :
    0 ≤ Ideal.rsqrt deg ∧ Ideal.rsqrt deg ≠ ⊤ ∧ IsReal (Ideal.rsqrt deg) ∧ IsReal (Ideal.div 1 deg) ∧
      Ideal.rsqrt deg * Ideal.rsqrt deg = Ideal.div 1 deg := by
  have hd : deg = (((S.card : ℝ) + 1 : ℝ) : EReal) := by
    rw [hdeg, Cert.MeanAffine.count_eq, EReal.coe_add, EReal.coe_one]
  have hpos : (0 : ℝ) < (S.card : ℝ) + 1 := by positivity
  have hrs : Ideal.rsqrt deg = (((Real.sqrt ((S.card : ℝ) + 1))⁻¹ : ℝ) : EReal) := by
    rw [hd, Ideal.rsqrt_coe, if_neg (not_lt.mpr hpos.le), if_neg hpos.ne']
  have hdv : Ideal.div 1 deg = ((1 / ((S.card : ℝ) + 1) : ℝ) : EReal) := by
    rw [hd, Ideal.div_coe hpos.ne', one_mul]
  refine ⟨?_, ?_, ?_, ?_, ?_⟩
  · rw [hrs]
    exact_mod_cast inv_nonneg.mpr (Real.sqrt_nonneg _)
  · rw [hrs]
    exact EReal.coe_ne_top _
  · rw [hrs]
    exact ⟨_, rfl⟩
  · rw [hdv]
    exact ⟨_, rfl⟩
  · rw [hrs, hdv, ← EReal.coe_mul]
    congr 1
    rw [← mul_inv, Real.mul_self_sqrt hpos.le, one_div]

/-- A nonnegative finite factor distributes over a finite sum of extended reals. -/
theorem mul_sum {ι : Type*} (s : Finset ι) (c : EReal) (h0 : 0 ≤ c) (ht : c ≠ ⊤) (f : ι → EReal) :
    c * ∑ e ∈ s, f e = ∑ e ∈ s, c * f e := by
  classical
  induction s using Finset.induction_on with
  | empty => simp
  | insert a s ha ih =>
    rw [Finset.sum_insert ha, Finset.sum_insert ha, EReal.left_distrib_of_nonneg_of_ne_top h0 ht, ih]

/-- One entry of the layer: the factor `c`, common to the edges arriving at the node, taken into the sum over those
    edges and into the self term, where `c · c = r`. -/
theorem y_entry {ι : Type*} (S : Finset ι) (c r : EReal) (h0 : 0 ≤ c) (ht : c ≠ ⊤) (hr : c * c = r)
    (t dS dG : ι → EReal) (hG : ∀ e ∈ S, dG e = c) (hp bq : EReal) :
    c * ((0 + ∑ e ∈ S, t e * dS e) + hp * c) + bq
      = ((0 + ∑ e ∈ S, t e * (dS e * dG e)) + hp * r) + bq := by
  rw [EReal.left_distrib_of_nonneg_of_ne_top h0 ht, zero_add, zero_add, mul_sum S c h0 ht, ← hr,
    mul_left_comm c hp c]
  congr 2
  refine Finset.sum_congr rfl fun e he => ?_
  rw [hG e he, mul_left_comm, mul_comm c (dS e)]

/-! ### Batch statistics from per-block partial sums -/

/-- A sum over the `N = A·B` rows is the sum over the `A` blocks of `B` consecutive rows of each block's sum, the row
    `r` of block `t` being row `B·t + r`. -/
theorem sum_by_blocks {A B N : ℕ} (hN : N = A * B) (blk : Fin A → Fin B → Fin N)
    (hblk : ∀ t r, (blk t r).val = B * t.val + r.val) (f : Fin N → EReal) :
    ∑ p : Fin N, f p = ∑ t : Fin A, ∑ r : Fin B, f (blk t r) := by
  rw [Cert.FoldSum.sum_blocks hN f]
  refine Finset.sum_congr rfl fun t _ => Finset.sum_congr rfl fun r _ => congrArg f (Fin.ext ?_)
  exact (hblk t r).symm

/-- The mean taken from per-block partial sums is the mean over all rows. -/
theorem mean_blocks {A B N : ℕ} (hN : N = A * B) (blk : Fin A → Fin B → Fin N)
    (hblk : ∀ t r, (blk t r).val = B * t.val + r.val) (y : Fin N → EReal) (n : EReal) :
    Ideal.div (0 + ∑ t : Fin A, (0 + ∑ r : Fin B, y (blk t r))) n = Ideal.div (0 + ∑ p : Fin N, y p) n := by
  rw [sum_by_blocks hN blk hblk y]
  simp only [zero_add]

/-- Over the reals, with `μ = (∑ z)/N`: `(∑ z²)/N − μ² = (∑ (z − μ)²)/N`. -/
theorem real_var {N : ℕ} (hpos : 0 < N) (z : Fin N → ℝ) (m : ℝ) (hm : m = (∑ p : Fin N, z p) * (1 / (N : ℝ))) :
    (∑ p : Fin N, z p * z p) * (1 / (N : ℝ)) - m * m = (∑ p : Fin N, (z p - m) * (z p - m)) * (1 / (N : ℝ)) := by
  have hN : (N : ℝ) ≠ 0 := by exact_mod_cast hpos.ne'
  have hs : ∑ p : Fin N, z p = (N : ℝ) * m := by rw [hm]; field_simp
  have h : ∀ p, (z p - m) * (z p - m) = z p * z p - 2 * m * z p + m * m := fun p => by ring
  simp only [h, Finset.sum_add_distrib, Finset.sum_sub_distrib, ← Finset.mul_sum, Finset.sum_const,
    Finset.card_univ, Fintype.card_fin, nsmul_eq_mul]
  rw [hs]
  field_simp
  ring

/-- The one-pass variance from per-block partial sums of squares, clamped below by zero, is the two-pass variance,
    when every entry is a real number. -/
theorem var_onepass {A B N : ℕ} (hN : N = A * B) (hpos : 0 < N) (blk : Fin A → Fin B → Fin N)
    (hblk : ∀ t r, (blk t r).val = B * t.val + r.val) (y : Fin N → EReal) (hy : ∀ p, IsReal (y p))
    (n : EReal) (hn : n = ((N : ℝ) : EReal)) (mu : EReal) (hmu : mu = Ideal.div (0 + ∑ p : Fin N, y p) n) :
    max (Ideal.div (0 + ∑ t : Fin A, (0 + ∑ r : Fin B, y (blk t r) * y (blk t r))) n - mu * mu) 0
      = Ideal.div (0 + ∑ p : Fin N, (y p - mu) * (y p - mu)) n := by
  have hNr : (N : ℝ) ≠ 0 := by exact_mod_cast hpos.ne'
  choose z hz using hy
  have hmu' : mu = (((∑ p : Fin N, z p) * (1 / (N : ℝ)) : ℝ) : EReal) := by
    rw [hmu, hn, Ideal.div_coe hNr, zero_add]
    simp only [hz, ← Cert.MeanAffine.coe_sum, ← EReal.coe_mul]
  have hL : (0 + ∑ t : Fin A, (0 + ∑ r : Fin B, y (blk t r) * y (blk t r)))
      = ((∑ p : Fin N, z p * z p : ℝ) : EReal) := by
    simp only [zero_add]
    rw [← sum_by_blocks hN blk hblk (fun p => y p * y p)]
    simp only [hz, ← EReal.coe_mul, ← Cert.MeanAffine.coe_sum]
  rw [hL, hn, Ideal.div_coe hNr, Ideal.div_coe hNr, hmu', zero_add]
  simp only [hz, ← EReal.coe_mul, ← EReal.coe_sub, ← Cert.MeanAffine.coe_sum]
  rw [real_var hpos z _ rfl]
  apply max_eq_left
  have h0 : (0 : ℝ) ≤ (∑ p : Fin N, (z p - (∑ p : Fin N, z p) * (1 / (N : ℝ))) * (z p - (∑ p : Fin N, z p) * (1 / (N : ℝ))))
      * (1 / (N : ℝ)) :=
    mul_nonneg (Finset.sum_nonneg fun p _ => mul_self_nonneg _) (by positivity)
  exact_mod_cast h0

/-- A real number divided by a nonzero real number is a real number. -/
theorem isReal_div_coe {a : EReal} (ha : IsReal a) {N : ℝ} (hN : N ≠ 0) : IsReal (Ideal.div a (N : EReal)) := by
  rw [Ideal.div_coe hN]
  exact ha.mul (isReal_coe _)

/-- The reciprocal square root of a positive real number is a real number. -/
theorem isReal_rsqrt_pos {a : EReal} (ha : IsReal a) (hpos : 0 < a) : IsReal (Ideal.rsqrt a) := by
  obtain ⟨x, rfl⟩ := ha
  have hx : 0 < x := by exact_mod_cast hpos
  rw [Ideal.rsqrt_coe, if_neg (not_lt.mpr hx.le), if_neg hx.ne']
  exact ⟨_, rfl⟩

end Cert.GcnStats

end
-- ==== Proof.LibSageBn.lean ====
/-
  Two mean-aggregating graph layers with a batch normalisation between them, as whole-array functions on the
  extended reals.

  A layer takes the sum `A` of every node's in-neighbours' rows, the nodes' own rows `X`, a per-node factor `s` (one
  column: the reciprocal of the in-degree clamped below by one), two weight matrices and a one-row bias, and forms
  `(A scaled row by row by s) · wl + X · wr + b`.  Between the layers every column `q` of the first layer's result
  `Y` is normalised: with `μ q = (0 + ∑ₚ Y (p, q)) / n` and a variance `v q`, the entry becomes
  `max (((Y (p, q) − μ q) · rsqrt (v q + ε)) · γ q + β q, 0)`.

  The variance is written in two ways.  One pass: `max ((0 + ∑ₚ Y (p, q)²) / n − μ q · μ q, 0)`.  Two passes:
  `(0 + ∑ₚ (Y (p, q) − μ q)²) / n`.  Over the real numbers, with `n` the number of rows,
  `(∑ y²)/n − μ² = (∑ (y − μ)²)/n ≥ 0`, so the two agree when every entry of `Y` is a real number; on the extended
  reals they need not (an infinite entry makes `∞ − ∞` appear on one side only), which is why the entries' finiteness
  is asked for.

  The aggregation `agg` is a parameter: both programs aggregate by the same gather and segment sum.
-/
import proofs.«167860_j85383949845212_2_alg».proof.Proof.LibSageNet
import proofs.«167860_j85383949845212_2_alg».proof.Proof.LibGcnStats

noncomputable section

open scoped BigOperators

namespace Cert.SageBn

open Idealize.ShloMosaic Idealize.ShloMosaic.ValueIdx Cert.Dense Cert.RowScale Cert.BiasRow Cert.SageDense Cert.SageNet
  Cert.GcnStats

/-- The column means as a one-row array: `(0 + ∑ₚ Y (p, q)) / n`. -/
def colMean {M K : ℕ} (n : EReal) (Y : Mat M K) : Mat 1 K :=
  fun i => Ideal.div (0 + ∑ p : Fin M, Y (ix2 p (c1 i))) n

/-- The one-pass column variances: `max ((0 + ∑ₚ Y (p, q)²) / n − μ q · μ q, 0)`. -/
def varOne {M K : ℕ} (n : EReal) (Y : Mat M K) : Mat 1 K :=
  fun i => max (Ideal.div (0 + ∑ p : Fin M, Y (ix2 p (c1 i)) * Y (ix2 p (c1 i))) n - colMean n Y i * colMean n Y i) 0

/-- The two-pass column variances: `(0 + ∑ₚ (Y (p, q) − μ q)²) / n`. -/
def varTwo {M K : ℕ} (n : EReal) (Y : Mat M K) : Mat 1 K :=
  fun i => Ideal.div (0 + ∑ p : Fin M, (Y (ix2 p (c1 i)) - colMean n Y i) * (Y (ix2 p (c1 i)) - colMean n Y i)) n

/-- Normalise every column by its mean and variance, scale, shift and rectify. -/
def bnRelu {M K : ℕ} (Y : Mat M K) (mu var ga be : Mat 1 K) (eps : EReal) : Mat M K :=
  fun i => max ((((Y i - mu (ix2 (0 : Fin 1) (c1 i))) * Ideal.rsqrt (var (ix2 (0 : Fin 1) (c1 i)) + eps))
    * ga (ix2 (0 : Fin 1) (c1 i))) + be (ix2 (0 : Fin 1) (c1 i))) 0

theorem bnRelu_apply {M K : ℕ} (Y : Mat M K) (mu var ga be : Mat 1 K) (eps : EReal) (p : Fin M) (q : Fin K) :
    bnRelu Y mu var ga be eps (ix2 p q)
      = max ((((Y (ix2 p q) - mu (ix2 (0 : Fin 1) q)) * Ideal.rsqrt (var (ix2 (0 : Fin 1) q) + eps))
        * ga (ix2 (0 : Fin 1) q)) + be (ix2 (0 : Fin 1) q)) 0 := rfl

/-- The network: a layer, the normalisation with the variance `var` of the first layer's result, a second layer over the
    aggregate of the normalised rows. -/
def net {M K P : ℕ} (var : EReal → Mat M K → Mat 1 K) (agg : Mat M K → Mat M K) (s : Mat M 1) (x : Mat M K)
    (wl1 wr1 : Mat K K) (b1 ga be : Mat 1 K) (wl2 wr2 : Mat K P) (b2 : Mat 1 P) (n eps : EReal) : Mat M P :=
  layer (agg (bnRelu (layer (agg x) x s wl1 wr1 b1) (colMean n (layer (agg x) x s wl1 wr1 b1))
      (var n (layer (agg x) x s wl1 wr1 b1)) ga be eps))
    (bnRelu (layer (agg x) x s wl1 wr1 b1) (colMean n (layer (agg x) x s wl1 wr1 b1))
      (var n (layer (agg x) x s wl1 wr1 b1)) ga be eps) s wl2 wr2 b2

/-- When every entry is a real number and `n` is the number of rows, the one-pass variance is the two-pass one. -/
theorem varOne_eq_varTwo {M K : ℕ} (hpos : 0 < M) (n : EReal) (hn : n = ((M : ℝ) : EReal)) (Y : Mat M K)
    (hY : ∀ i, IsReal (Y i)) : varOne n Y = varTwo n Y := by
  funext i
  have h := var_onepass (A := 1) (B := M) (N := M) (one_mul M).symm hpos (fun _ r => r)
    (fun t r => by
      obtain rfl : t = 0 := Subsingleton.elim _ _
      show r.val = M * 0 + r.val
      omega)
    (fun p => Y (ix2 p (c1 i))) (fun p => hY _) n hn (colMean n Y i) rfl
  simp only [Fin.sum_univ_one, zero_add] at h
  show max (Ideal.div (0 + ∑ p : Fin M, Y (ix2 p (c1 i)) * Y (ix2 p (c1 i))) n - colMean n Y i * colMean n Y i) 0
    = Ideal.div (0 + ∑ p : Fin M, (Y (ix2 p (c1 i)) - colMean n Y i) * (Y (ix2 p (c1 i)) - colMean n Y i)) n
  simp only [zero_add]
  exact h

/-- The two networks agree when the first layer's result is real everywhere. -/
theorem net_one_eq_two {M K P : ℕ} (hpos : 0 < M) (agg : Mat M K → Mat M K) (s : Mat M 1) (x : Mat M K)
    (wl1 wr1 : Mat K K) (b1 ga be : Mat 1 K) (wl2 wr2 : Mat K P) (b2 : Mat 1 P) (n eps : EReal)
    (hn : n = ((M : ℝ) : EReal)) (hY : ∀ i, IsReal (layer (agg x) x s wl1 wr1 b1 i)) :
    net varOne agg s x wl1 wr1 b1 ga be wl2 wr2 b2 n eps = net varTwo agg s x wl1 wr1 b1 ga be wl2 wr2 b2 n eps := by
  unfold net
  rw [varOne_eq_varTwo hpos n hn _ hY]

/-- A layer's entry is a real number when every array it reads holds real numbers. -/
theorem isReal_layer {M K N : ℕ} (A X : Mat M K) (s : Mat M 1) (wl wr : Mat K N) (b : Mat 1 N)
    (hA : ∀ i, IsReal (A i)) (hX : ∀ i, IsReal (X i)) (hs : ∀ i, IsReal (s i)) (hl : ∀ i, IsReal (wl i))
    (hr : ∀ i, IsReal (wr i)) (hb : ∀ i, IsReal (b i)) (i : (⟨2, ![M, N]⟩ : Shape).Idx) :
    IsReal (layer A X s wl wr b i) := by
  show IsReal ((mm (scaleRows A s) wl i + mm X wr i) + b (ix2 (0 : Fin 1) (c1 i)))
  refine IsReal.add (IsReal.add ?_ ?_) (hb _)
  · exact isReal_sum _ _ fun k _ => IsReal.mul (IsReal.mul (hA _) (hs _)) (hl _)
  · exact isReal_sum _ _ fun k _ => IsReal.mul (hX _) (hr _)

end Cert.SageBn

end
-- ==== Proof.Agg.lean ====
/-
  The aggregation both programs spell on the host, and the per-node factor, as functions of the edge array.

  The edge array `e` has two rows of node numbers: row 0 the sources, row 1 the destinations.  A source entry that is
  negative is wrapped by adding the number of nodes (the host's index normalisation) before the gather, which clamps it
  into range.  `agg e X` sums, into a zero array, for every edge the row of `X` at its source into the row at its
  destination.  `degVec e` counts the edges arriving at each node (a one summed per edge into a zero vector), and
  `sCol e` is the column of `1 / max (degree, 1)`.
-/
import proofs.«167860_j85383949845212_2_alg».proof.ReferenceIdeal
import proofs.«167860_j85383949845212_2_alg».proof.Proof.Gen.ReferenceIdeal
import proofs.«167860_j85383949845212_2_alg».proof.Proof.LibSageBn

noncomputable section

namespace Cert.SageBn.Host

open Cert.ReferenceIdeal Cert.ReferenceIdeal.Gen Idealize.ShloMosaic Idealize.ShloMosaic.ValueIdx Cert.Dense Cert.RowScale

/-- The edge array's contents. -/
abbrev Edges : Type := (⟨S2x600000, .i32⟩ : BufTy).Contents (Elt Ideal)

/-- Row `r` of the edge array as a vector. -/
def edgeRow0 (e : Edges) : IVec S600000 32 :=
  shapeCast _ (extractStridedSlice S1x600000 ![0, 0] e slices_S2x600000_S1x600000_0_0) shapeCasts_S1x600000_S600000

def edgeRow1 (e : Edges) : IVec S600000 32 :=
  shapeCast _ (extractStridedSlice S1x600000 ![1, 0] e slices_S2x600000_S1x600000_1_0) shapeCasts_S1x600000_S600000

/-- The source entries, a negative one wrapped by the number of nodes, as a column of start indices. -/
def srcCol (e : Edges) : IVec S600000x1 32 :=
  broadcastInDim S600000x1 ![0] bcast_S600000_S600000x1_0
    (select (cmpi .slt (edgeRow0 e) (broadcastInDim S600000 ![] bcast_S_S600000 (constantI S_ 32 0#32)))
      (addi (edgeRow0 e) (broadcastInDim S600000 ![] bcast_S_S600000 (constantI S_ 32 50000#32))) (edgeRow0 e))

/-- The destination entries as a column of scatter indices. -/
def dstCol (e : Edges) : IVec S600000x1 32 :=
  broadcastInDim S600000x1 ![0] bcast_S600000_S600000x1_0 (edgeRow1 e)

/-- Every edge's source row of `X` summed into its destination row of a zero array. -/
def agg (e : Edges) (X : FVec Ideal S50000x128 .f32) : FVec Ideal S50000x128 .f32 :=
  Host.scatterAdd scatter_S50000x128_S600000x1_S600000x128_1_0_0_1
    (broadcastInDim S50000x128 ![] bcast_S_S50000x128 (constant S_ .f32 0x00000000#32)) (dstCol e)
    (Host.gather gather_S50000x128_S600000x1_S600000x128_1_0_n_n_0_1_1128 X (srcCol e))

/-- The vector of ones. -/
def oneVec : FVec Ideal S50000 .f32 := broadcastInDim S50000 ![] bcast_S_S50000 (constant S_ .f32 0x3F800000#32)

/-- The number of edges arriving at each node: a one per edge summed into a zero vector. -/
def degVec (e : Edges) : FVec Ideal S50000 .f32 :=
  Host.scatterAdd scatter_S50000_S600000x1_S600000_n_0_0_1
    (broadcastInDim S50000 ![] bcast_S_S50000 (constant S_ .f32 0x00000000#32)) (dstCol e)
    (broadcastInDim S600000 ![] bcast_S_S600000 (constant S_ .f32 0x3F800000#32))

/-- The vector of `1 / max (degree, 1)`. -/
def invDeg (e : Edges) : FVec Ideal S50000 .f32 := Host.divf oneVec (maximumf (degVec e) oneVec)

/-- The per-node factor as a column. -/
def sCol (e : Edges) : Mat 50000 1 := col (invDeg e)

/-- The number of nodes as the programs write it: the pattern of `50000.0`. -/
def nLit : EReal := Ideal.ofBits .f32 0x47435000#32

/-- The stabiliser under the square root: the pattern of the single-precision `1e-5`. -/
def epsLit : EReal := Ideal.ofBits .f32 0x3727C5AC#32

/-- Exponent field 142, significand `2^23 + 0x435000 = 12800000`: `12800000 · 2^(142 − 127 − 23) = 50000`. -/
theorem nLit_eq : nLit = (((50000 : ℕ) : ℝ) : EReal) := by
  unfold nLit
  simp [Ideal.ofBits, Ideal.ieee, -EReal.coe_mul]; norm_num

/-- The network both programs compute, the variance left as a parameter. -/
def result (var : EReal → Mat 50000 128 → Mat 1 128) (x : Mat 50000 128) (e : Edges) (wl1 : Mat 128 128) (b1 : Row 128)
    (wr1 : Mat 128 128) (ga be : Row 128) (wl2 : Mat 128 64) (b2 : Row 64) (wr2 : Mat 128 64) : Mat 50000 64 :=
  net var (agg e) (sCol e) x wl1 wr1 (row b1) (row ga) (row be) wl2 wr2 (row b2) nLit epsLit

end Cert.SageBn.Host

end
-- ==== Proof.KWalk.lean ====
/-
  What each kernel region finds in its operands.

  The program is three kernel regions among stretches of host operations; the buffer contents at each boundary are a
  fold over the launch memory: a host stretch replaces the buffers its operations write by the operations' values and
  leaves every other buffer alone; a region replaces its output array and leaves every other buffer, its input arrays
  among them, alone. Reading one buffer at a region's entry is therefore a walk back through the fold: across a stretch
  that does not write it, across a region of which it is no output, until the stretch that writes it, where it is the
  value of that stretch's operations over the buffers the stretch itself reads.

  The walks end in these values. With `x` the feature array, `e` the edge array, `Y` the first region's output and
  `H` the second region's output:
    region 0 finds the neighbour sum `agg e x`, the per-node factor `1 / max (degree, 1)` as a column, the first bias
      as a row, and the features and the two first-layer weight matrices as launched;
    region 1 finds `Y`, the column means `(∑ rows of Y) / 50000`, the one-pass column variances
      `max ((∑ rows of Y·Y) / 50000 − mean · mean, 0)`, and the scale and shift vectors as rows;
    region 2 finds the neighbour sum `agg e H`, the same per-node factor, `H`, the second bias as a row and the two
      second-layer weight matrices as launched.
-/
import proofs.«167860_j85383949845212_2_alg».proof.Proof.Gen.KernelIdeal.Frame
import proofs.«167860_j85383949845212_2_alg».proof.Proof.Agg

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg) (c : Dev nD)

/-! ## The launch contents of the ten arguments, and the two region outputs kept as names -/

/-- The features. -/
abbrev arg0 := m ((c : Thread nD τ).loc main_arg0)
/-- The edge array. -/
abbrev arg1 := m ((c : Thread nD τ).loc main_arg1)
/-- The first layer's neighbour weights. -/
abbrev arg2 := m ((c : Thread nD τ).loc main_arg2)
/-- The first layer's bias. -/
abbrev arg3 := m ((c : Thread nD τ).loc main_arg3)
/-- The first layer's self weights. -/
abbrev arg4 := m ((c : Thread nD τ).loc main_arg4)
/-- The normalisation's scale. -/
abbrev arg5 := m ((c : Thread nD τ).loc main_arg5)
/-- The normalisation's shift. -/
abbrev arg6 := m ((c : Thread nD τ).loc main_arg6)
/-- The second layer's neighbour weights. -/
abbrev arg7 := m ((c : Thread nD τ).loc main_arg7)
/-- The second layer's bias. -/
abbrev arg8 := m ((c : Thread nD τ).loc main_arg8)
/-- The second layer's self weights. -/
abbrev arg9 := m ((c : Thread nD τ).loc main_arg9)

/-- The first region's output, as that region leaves it. -/
abbrev yOut := W2 m ρ c (Proc.devRef .tc main_v24)
/-- The second region's output, as that region leaves it. -/
abbrev hOut := W4 m ρ c (Proc.devRef .tc main_v40)

/-! ## The statistics the middle stretch computes, as functions of the array they are taken of -/

/-- The column means: the sum of the rows, divided entrywise by the number of rows as the program writes it. -/
def hostMean (Y : FVec Ideal S50000x128 .f32) : FVec Ideal S1x128 .f32 :=
  Host.divf
    (broadcastInDim S1x128 ![1] bcast_S128_S1x128_1
      (Host.reduceAdd Y (constant (F := Ideal) S_ .f32 0x00000000#32) reducesTo_S50000x128_S128_d0 h_S_))
    (broadcastInDim S1x128 ![] bcast_S_S1x128 (constant (F := Ideal) S_ .f32 0x47435000#32))

/-- The one-pass column variances: the mean of the squares less the square of the mean, cut off below at zero. -/
def hostVar (Y : FVec Ideal S50000x128 .f32) : FVec Ideal S1x128 .f32 :=
  maximumf
    (subf
      (Host.divf
        (broadcastInDim S1x128 ![1] bcast_S128_S1x128_1
          (Host.reduceAdd (mulf Y Y) (constant (F := Ideal) S_ .f32 0x00000000#32) reducesTo_S50000x128_S128_d0 h_S_))
        (broadcastInDim S1x128 ![] bcast_S_S1x128 (constant (F := Ideal) S_ .f32 0x47435000#32)))
      (mulf (hostMean Y) (hostMean Y)))
    (broadcastInDim S1x128 ![] bcast_S_S1x128 (constant (F := Ideal) S_ .f32 0x00000000#32))

/-- A host stretch leaves a buffer that none of its operations writes as it was: the buffer differs from every
    operation's result buffer. -/
local macro "stretch_keeps" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The first stretch: from the launch memory to region 0's entry -/

theorem keep0_arg0 : StableHlo.after hostOps0 (W0 m ρ c) (Proc.devRef .tc main_arg0) = W0 m ρ c (Proc.devRef .tc main_arg0) := by
  stretch_keeps
theorem keep0_arg2 : StableHlo.after hostOps0 (W0 m ρ c) (Proc.devRef .tc main_arg2) = W0 m ρ c (Proc.devRef .tc main_arg2) := by
  stretch_keeps
theorem keep0_arg4 : StableHlo.after hostOps0 (W0 m ρ c) (Proc.devRef .tc main_arg4) = W0 m ρ c (Proc.devRef .tc main_arg4) := by
  stretch_keeps
theorem keep0_arg5 : StableHlo.after hostOps0 (W0 m ρ c) (Proc.devRef .tc main_arg5) = W0 m ρ c (Proc.devRef .tc main_arg5) := by
  stretch_keeps
theorem keep0_arg6 : StableHlo.after hostOps0 (W0 m ρ c) (Proc.devRef .tc main_arg6) = W0 m ρ c (Proc.devRef .tc main_arg6) := by
  stretch_keeps
theorem keep0_arg8 : StableHlo.after hostOps0 (W0 m ρ c) (Proc.devRef .tc main_arg8) = W0 m ρ c (Proc.devRef .tc main_arg8) := by
  stretch_keeps

set_option maxHeartbeats 4000000 in
/-- The first stretch's neighbour sum: the features' rows at the (wrapped) sources summed into the destinations. -/
theorem first_agg : StableHlo.after hostOps0 (W0 m ρ c) (Proc.devRef .tc main_v22) = Cert.SageBn.Host.agg (arg1 m c) (arg0 m c) := by
  after_results
  rfl

set_option maxHeartbeats 4000000 in
/-- The first stretch's per-node factor, as a column. -/
theorem first_factor : StableHlo.after hostOps0 (W0 m ρ c) (Proc.devRef .tc main_v12)
    = shapeCast S50000x1 (Cert.SageBn.Host.invDeg (arg1 m c)) shapeCasts_S50000_S50000x1 := by
  after_results
  rfl

set_option maxHeartbeats 4000000 in
/-- The first bias as a row. -/
theorem first_bias : StableHlo.after hostOps0 (W0 m ρ c) (Proc.devRef .tc main_v23)
    = shapeCast S1x128 (arg3 m c) shapeCasts_S128_S1x128 := by
  after_results
  rfl

set_option maxHeartbeats 4000000 in
/-- The source row of the edge array. -/
theorem first_row0 : StableHlo.after hostOps0 (W0 m ρ c) (Proc.devRef .tc main_v1) = Cert.SageBn.Host.edgeRow0 (arg1 m c) := by
  after_results
  rfl

set_option maxHeartbeats 4000000 in
/-- The destination row of the edge array. -/
theorem first_row1 : StableHlo.after hostOps0 (W0 m ρ c) (Proc.devRef .tc main_v3) = Cert.SageBn.Host.edgeRow1 (arg1 m c) := by
  after_results
  rfl

/-! ### Region 0's operands -/

theorem entry0_agg : V1 m ρ c main_v22 = Cert.SageBn.Host.agg (arg1 m c) (arg0 m c) := first_agg m ρ c
theorem entry0_factor : V1 m ρ c main_v12 = shapeCast S50000x1 (Cert.SageBn.Host.invDeg (arg1 m c)) shapeCasts_S50000_S50000x1 :=
  first_factor m ρ c
theorem entry0_bias : V1 m ρ c main_v23 = shapeCast S1x128 (arg3 m c) shapeCasts_S128_S1x128 := first_bias m ρ c
theorem entry0_x : V1 m ρ c main_arg0 = arg0 m c := (keep0_arg0 m ρ c).trans rfl
theorem entry0_wl : V1 m ρ c main_arg2 = arg2 m c := (keep0_arg2 m ρ c).trans rfl
theorem entry0_wr : V1 m ρ c main_arg4 = arg4 m c := (keep0_arg4 m ρ c).trans rfl

/-! ## Across region 0, and the middle stretch: to region 1's entry -/

/-- Region 0 writes neither normalisation vector, and neither does the first stretch. -/
theorem exit0_arg5 : W2 m ρ c (Proc.devRef .tc main_arg5) = arg5 m c :=
  (W2_of_ne m ρ c main_arg5 (by decide)).trans ((keep0_arg5 m ρ c).trans rfl)
theorem exit0_arg6 : W2 m ρ c (Proc.devRef .tc main_arg6) = arg6 m c :=
  (W2_of_ne m ρ c main_arg6 (by decide)).trans ((keep0_arg6 m ρ c).trans rfl)
theorem exit0_arg8 : W2 m ρ c (Proc.devRef .tc main_arg8) = arg8 m c :=
  (W2_of_ne m ρ c main_arg8 (by decide)).trans ((keep0_arg8 m ρ c).trans rfl)
/-- The edge rows are no array of region 0. -/
theorem exit0_row0 : W2 m ρ c (Proc.devRef .tc main_v1) = Cert.SageBn.Host.edgeRow0 (arg1 m c) :=
  (W2_of_ne m ρ c main_v1 (by decide)).trans (first_row0 m ρ c)
theorem exit0_row1 : W2 m ρ c (Proc.devRef .tc main_v3) = Cert.SageBn.Host.edgeRow1 (arg1 m c) :=
  (W2_of_ne m ρ c main_v3 (by decide)).trans (first_row1 m ρ c)
/-- The factor column is an input array of region 0: it leaves the region as it entered. -/
theorem exit0_factor : W2 m ρ c (Proc.devRef .tc main_v12)
    = shapeCast S50000x1 (Cert.SageBn.Host.invDeg (arg1 m c)) shapeCasts_S50000_S50000x1 :=
  ((W2_arr m ρ c 1).trans (((dat0 (V1 m ρ) c).arrAt_in 1 rfl _).trans (A_eq0 (V1 m ρ) c 1))).trans (first_factor m ρ c)

theorem keep1_v24 : StableHlo.after hostOps1 (W2 m ρ c) (Proc.devRef .tc main_v24) = W2 m ρ c (Proc.devRef .tc main_v24) := by
  stretch_keeps
theorem keep1_v1 : StableHlo.after hostOps1 (W2 m ρ c) (Proc.devRef .tc main_v1) = W2 m ρ c (Proc.devRef .tc main_v1) := by
  stretch_keeps
theorem keep1_v3 : StableHlo.after hostOps1 (W2 m ρ c) (Proc.devRef .tc main_v3) = W2 m ρ c (Proc.devRef .tc main_v3) := by
  stretch_keeps
theorem keep1_v12 : StableHlo.after hostOps1 (W2 m ρ c) (Proc.devRef .tc main_v12) = W2 m ρ c (Proc.devRef .tc main_v12) := by
  stretch_keeps
theorem keep1_arg8 : StableHlo.after hostOps1 (W2 m ρ c) (Proc.devRef .tc main_arg8) = W2 m ρ c (Proc.devRef .tc main_arg8) := by
  stretch_keeps

set_option maxHeartbeats 4000000 in
/-- The middle stretch's column means of region 0's output. -/
theorem mid_mean : StableHlo.after hostOps1 (W2 m ρ c) (Proc.devRef .tc main_v31) = hostMean (yOut m ρ c) := by
  after_results
  rfl

set_option maxHeartbeats 4000000 in
/-- The middle stretch's column variances of region 0's output. -/
theorem mid_var : StableHlo.after hostOps1 (W2 m ρ c) (Proc.devRef .tc main_v37) = hostVar (yOut m ρ c) := by
  after_results
  rfl

set_option maxHeartbeats 4000000 in
/-- The scale as a row. -/
theorem mid_gamma : StableHlo.after hostOps1 (W2 m ρ c) (Proc.devRef .tc main_v38)
    = shapeCast S1x128 (arg5 m c) shapeCasts_S128_S1x128 := by
  after_results
  rw [exit0_arg5 m ρ c]
  rfl

set_option maxHeartbeats 4000000 in
/-- The shift as a row. -/
theorem mid_beta : StableHlo.after hostOps1 (W2 m ρ c) (Proc.devRef .tc main_v39)
    = shapeCast S1x128 (arg6 m c) shapeCasts_S128_S1x128 := by
  after_results
  rw [exit0_arg6 m ρ c]
  rfl

/-! ### Region 1's operands -/

theorem entry1_y : V3 m ρ c main_v24 = yOut m ρ c := keep1_v24 m ρ c
theorem entry1_mean : V3 m ρ c main_v31 = hostMean (yOut m ρ c) := mid_mean m ρ c
theorem entry1_var : V3 m ρ c main_v37 = hostVar (yOut m ρ c) := mid_var m ρ c
theorem entry1_gamma : V3 m ρ c main_v38 = shapeCast S1x128 (arg5 m c) shapeCasts_S128_S1x128 := mid_gamma m ρ c
theorem entry1_beta : V3 m ρ c main_v39 = shapeCast S1x128 (arg6 m c) shapeCasts_S128_S1x128 := mid_beta m ρ c

/-! ## Across region 1, and the last stretch: to region 2's entry -/

/-- The edge rows, the factor column and the second bias are no output of region 1 and are not written by the middle
    stretch. -/
theorem exit1_row0 : W4 m ρ c (Proc.devRef .tc main_v1) = Cert.SageBn.Host.edgeRow0 (arg1 m c) :=
  (W4_of_ne m ρ c main_v1 (by decide)).trans ((keep1_v1 m ρ c).trans (exit0_row0 m ρ c))
theorem exit1_row1 : W4 m ρ c (Proc.devRef .tc main_v3) = Cert.SageBn.Host.edgeRow1 (arg1 m c) :=
  (W4_of_ne m ρ c main_v3 (by decide)).trans ((keep1_v3 m ρ c).trans (exit0_row1 m ρ c))
theorem exit1_factor : W4 m ρ c (Proc.devRef .tc main_v12)
    = shapeCast S50000x1 (Cert.SageBn.Host.invDeg (arg1 m c)) shapeCasts_S50000_S50000x1 :=
  (W4_of_ne m ρ c main_v12 (by decide)).trans ((keep1_v12 m ρ c).trans (exit0_factor m ρ c))
theorem exit1_arg8 : W4 m ρ c (Proc.devRef .tc main_arg8) = arg8 m c :=
  (W4_of_ne m ρ c main_arg8 (by decide)).trans ((keep1_arg8 m ρ c).trans (exit0_arg8 m ρ c))

theorem keep2_v12 : StableHlo.after hostOps2 (W4 m ρ c) (Proc.devRef .tc main_v12) = W4 m ρ c (Proc.devRef .tc main_v12) := by
  stretch_keeps
theorem keep2_v40 : StableHlo.after hostOps2 (W4 m ρ c) (Proc.devRef .tc main_v40) = W4 m ρ c (Proc.devRef .tc main_v40) := by
  stretch_keeps

set_option maxHeartbeats 4000000 in
/-- The last stretch's neighbour sum, of region 1's output. -/
theorem last_agg : StableHlo.after hostOps2 (W4 m ρ c) (Proc.devRef .tc main_v50) = Cert.SageBn.Host.agg (arg1 m c) (hOut m ρ c) := by
  after_results
  rw [exit1_row0 m ρ c, exit1_row1 m ρ c]
  rfl

set_option maxHeartbeats 4000000 in
/-- The second bias as a row. -/
theorem last_bias : StableHlo.after hostOps2 (W4 m ρ c) (Proc.devRef .tc main_v51)
    = shapeCast S1x64 (arg8 m c) shapeCasts_S64_S1x64 := by
  after_results
  rw [exit1_arg8 m ρ c]
  rfl

/-! ### Region 2's operands -/

theorem entry2_agg : V5 m ρ c main_v50 = Cert.SageBn.Host.agg (arg1 m c) (hOut m ρ c) := last_agg m ρ c
theorem entry2_factor : V5 m ρ c main_v12 = shapeCast S50000x1 (Cert.SageBn.Host.invDeg (arg1 m c)) shapeCasts_S50000_S50000x1 :=
  (keep2_v12 m ρ c).trans (exit1_factor m ρ c)
theorem entry2_h : V5 m ρ c main_v40 = hOut m ρ c := keep2_v40 m ρ c
theorem entry2_bias : V5 m ρ c main_v51 = shapeCast S1x64 (arg8 m c) shapeCasts_S64_S1x64 := last_bias m ρ c
/-- The second layer's weight matrices are input arrays of region 2, which leaves them as they entered, and at the
    region's exit they are as launched. -/
theorem entry2_wl : V5 m ρ c main_arg7 = arg7 m c :=
  ((W6_arr m ρ c 3).trans (((dat2 (V5 m ρ) c).arrAt_in 3 rfl _).trans (A_eq2 (V5 m ρ) c 3))).symm.trans (W6_main_arg7 m ρ c)
theorem entry2_wr : V5 m ρ c main_arg9 = arg9 m c :=
  ((W6_arr m ρ c 5).trans (((dat2 (V5 m ρ) c).arrAt_in 5 rfl _).trans (A_eq2 (V5 m ρ) c 5))).symm.trans (W6_main_arg9 m ρ c)

end Cert.KernelIdeal.Whole

end
-- ==== Proof.LibLayerAt.lean ====
/-
  A layer read at two indices.

  An entry `(p, q)` of a mean-aggregating layer `(A scaled row by row by s) · wl + X · wr + b` depends on row `p` of the
  aggregate `A`, of the features `X` and of the factor `s`, on column `q` of the two weight matrices and on entry `q` of
  the bias row only.  So two layers over arrays of different heights and widths agree at a pair of indices as soon as those
  rows, columns and entries agree: what reading a block of rows against the whole arrays needs, the weights and the bias
  compared entrywise too (a block of a window that holds a whole array is that array, but as another term).
-/
import proofs.«167860_j85383949845212_2_alg».proof.Proof.LibSageNet

noncomputable section

namespace Cert.SageNet

open Idealize.ShloMosaic Idealize.ShloMosaic.ValueIdx Cert.Dense Cert.RowScale Cert.BiasRow Cert.SageDense

/-- A layer's entry from the same row of the aggregate, the features and the factor, the same column of the weights and
    the same bias entry, at any extents. -/
theorem layer_at {M M' K N N' : ℕ} (A X : Mat M K) (s : Mat M 1) (wl wr : Mat K N) (b : Mat 1 N)
    (A' X' : Mat M' K) (s' : Mat M' 1) (wl' wr' : Mat K N') (b' : Mat 1 N')
    (j : (⟨2, ![M', N']⟩ : Shape).Idx) (i : (⟨2, ![M, N]⟩ : Shape).Idx)
    (hA : ∀ k : Fin K, A' (ix2 (c0 j) k) = A (ix2 (c0 i) k)) (hX : ∀ k : Fin K, X' (ix2 (c0 j) k) = X (ix2 (c0 i) k))
    (hs : s' (ix2 (c0 j) (0 : Fin 1)) = s (ix2 (c0 i) (0 : Fin 1)))
    (hl : ∀ k : Fin K, wl' (ix2 k (c1 j)) = wl (ix2 k (c1 i))) (hr : ∀ k : Fin K, wr' (ix2 k (c1 j)) = wr (ix2 k (c1 i)))
    (hb : b' (ix2 (0 : Fin 1) (c1 j)) = b (ix2 (0 : Fin 1) (c1 i))) :
    layer A' X' s' wl' wr' b' j = layer A X s wl wr b i :=
  lin_at (scaleRows A s) X wl wr b (scaleRows A' s') X' wl' wr' b' j i
    (fun k => by rw [scaleRows_apply, scaleRows_apply, hA k, hs]) hX hl hr hb

end Cert.SageNet

end
-- ==== Proof.KRegion0.lean ====
/-
  The first kernel region as one function of the arrays it finds.

  The region walks ten blocks of 5000 rows.  At a block it reads 5000 rows of the summed neighbour rows, of the per-node
  factor and of the features, the two whole weight matrices and the one-row bias, and stores one layer of them: the rows
  of the aggregate scaled by the factor, times the first weights, plus the features times the second, plus the bias row.
  An entry of a layer depends on its own row of the aggregate, the factor and the features only, so block `t` of the
  layer of the whole arrays is the layer of block `t`; the ten blocks tile the 50000 rows, row `r` lying in block
  `r / 5000`.  Hence the region's output array ends as the layer of the whole arrays.
-/
import proofs.«167860_j85383949845212_2_alg».proof.Proof.Gen.KernelIdeal.Frame
import proofs.«167860_j85383949845212_2_alg».proof.Proof.LibLayerAt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.Dense Cert.RowScale Cert.BiasRow Cert.SageDense Cert.SageNet

variable (V : (c : Dev nD) → (b : Ref sig .tc) → Buf (Elt Ideal) ((c : Thread nD τ).loc b))

theorem hz : (![0, 0] : Fin 2 → Nat) = fun _ => 0 := funext fun a => by fin_cases a <;> rfl

/-- The body's arithmetic is one layer of the blocks it loads. -/
theorem pay0 (x0 : Vec Ideal S5000x128 .f32) (x1 : Vec Ideal S5000x1 .f32) (x2 : Vec Ideal S5000x128 .f32)
    (x3 x5 : Vec Ideal S128x128 .f32) (x4 : Vec Ideal S1x128 .f32) :
    k0_pay1 x0 x1 x2 x3 x5 x4 = layer x0 x2 x1 x3 x5 x4 := by
  unfold k0_pay1
  simp only [shapeCast_self]
  rw [vecScaleRows, vecLin _ rfl rfl rfl rfl rfl rfl]
  rfl

/-- The region's result as a function of the arrays it finds: the layer of the aggregate `%22`, the features, the factor
    column `%12`, the two weight matrices and the bias row `%23`. -/
def G0 (c : Dev nD) : S50000x128.Idx → Elt Ideal .f32 :=
  layer (V c main_v22) (V c main_arg0) (V c main_v12) (V c main_arg2) (V c main_arg4) (V c main_v23)

/-- The printed index maps over the grid: the row windows move with the output's, the weight and bias windows stay. -/
theorem idx0 : ∀ t : Fin cfg0.N, win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- What point `t` writes back is block `t` of the layer of the whole arrays. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [pay0]
  obtain ⟨e60, e61, e00, e01, e10, e11, e20, e21, e30, e31, e40, e41, e50, e51⟩ := idx0 t
  funext j
  show layer (iblk0 V c 0 t) (iblk0 V c 2 t) (iblk0 V c 1 t) (iblk0 V c 3 t) (iblk0 V c 5 t) (iblk0 V c 4 t) j
    = G0 V c (((cfg0.win 6).blk t).view.emb j)
  have hj0 : (j 0).val < 5000 := (j 0).isLt
  have hj1 : (j 1).val < 128 := (j 1).isLt
  refine layer_at (V c main_v22) (V c main_arg0) (V c main_v12) (V c main_arg2) (V c main_arg4) (V c main_v23)
    (iblk0 V c 0 t) (iblk0 V c 2 t) (iblk0 V c 1 t) (iblk0 V c 3 t) (iblk0 V c 5 t) (iblk0 V c 4 t) j
    (((cfg0.win 6).blk t).view.emb j) (fun k => ?_) (fun k => ?_) ?_ (fun k => ?_) (fun k => ?_) ?_
  · show V c main_v22 (((cfg0.win 0).blk t).view.emb (ix2 (c0 j) k)) = V c main_v22 (ix2 (c0 (((cfg0.win 6).blk t).view.emb j)) k)
    refine congrArg (V c main_v22) (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · show V c main_arg0 (((cfg0.win 2).blk t).view.emb (ix2 (c0 j) k)) = V c main_arg0 (ix2 (c0 (((cfg0.win 6).blk t).view.emb j)) k)
    refine congrArg (V c main_arg0) (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * k.val = k.val; omega
  · show V c main_v12 (((cfg0.win 1).blk t).view.emb (ix2 (c0 j) (0 : Fin 1))) = V c main_v12 (ix2 (c0 (((cfg0.win 6).blk t).view.emb j)) (0 : Fin 1))
    refine congrArg (V c main_v12) (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 1 + 1 * 0 = 0; omega
  · show V c main_arg2 (((cfg0.win 3).blk t).view.emb (ix2 k (c1 j))) = V c main_arg2 (ix2 k (c1 (((cfg0.win 6).blk t).view.emb j)))
    refine congrArg (V c main_arg2) (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · show V c main_arg4 (((cfg0.win 5).blk t).view.emb (ix2 k (c1 j))) = V c main_arg4 (ix2 k (c1 (((cfg0.win 6).blk t).view.emb j)))
    refine congrArg (V c main_arg4) (funext fun a => Fin.ext ?_)
    match a with
    | ⟨0, _⟩ => show win0_5.index t (0 : Fin 2) * 128 + 1 * k.val = k.val; omega
    | ⟨1, _⟩ => show win0_5.index t (1 : Fin 2) * 128 + 1 * (j 1).val = win0_6.index t (1 : Fin 2) * 128 + 1 * (j 1).val; omega
  · show V c main_v23 (((cfg0.win 4).blk t).view.emb (ix2 (0 : Fin 1) (c1 j))) = V c main_v23 (ix2 (0 : Fin 1) (c1 (((cfg0.win 6).blk t).view.emb j)))
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * (j 1).val = win0_6.index t (1 : Fin 2) * 128 + 1 * (j 1).val; omega

/-- An index of the array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v24).slice (win0_6.rect t)).set ↔ _
  rw [View.set_slice_whole, Rect.mem_set_unit]
  exact Iff.rfl

/-- Every row lies in some point's block: row `r` in block `r / 5000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  refine ⟨⟨(i 0).val / 5000, by show (i 0).val / 5000 < 10; omega⟩, flush0_6 _, ?_⟩
  rw [mem_blk0]
  obtain ⟨e60, e61, -⟩ := idx0 ⟨(i 0).val / 5000, by show (i 0).val / 5000 < 10; omega⟩
  intro a
  match a with
  | ⟨0, _⟩ =>
    show win0_6.index _ (0 : Fin 2) * 5000 ≤ (i 0).val ∧ (i 0).val < win0_6.index _ (0 : Fin 2) * 5000 + 5000
    rw [e60]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e61]; omega

/-- The region's output array after the region: the layer of the arrays the region found. -/
theorem final0 (c : Dev nD) : (dat0 V c).arrAt 6 cfg0.N = G0 V c :=
  (dat0 V c).arrAt_eq_of_cover 6 (G0 V c) (fun t _ => flushed0 V c t) (cover0)

end Cert.KernelIdeal.Whole

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«167860_j85383949845212_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibBnStats.lean ====
/-
  The batch statistics and the normalisation body, read in the forms the two programs spell them.

  The host sums an `[M, K]` array down its first axis from a scalar zero: the sum at column `q` is
  `0 + ∑ₚ Y (p, q)`.  Laid out as one row and divided entry by entry by a broadcast scalar `n`, it is the row of column
  means; the sum of the squares divided by `n`, less the square of the mean, clamped below by a broadcast zero, is the
  one-pass variance.  The normalisation of an entry reads its own entry of the array and the four one-row arrays at its
  column only; the vector unit spells it with each one-row array repeated down the rows and a zero splat under the
  maximum.
-/
import proofs.«167860_j85383949845212_2_alg».proof.Proof.LibSageBn
import proofs.«167860_j85383949845212_2_alg».proof.Proof.LibHostLayout
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.SageBn

open Idealize.ShloMosaic Idealize.ShloMosaic.ValueIdx Cert.Dense

/-- A vector `[K]` laid out as the one row `[1, K]` reads, at `(u, q)`, the vector at `q`. -/
theorem bcast_vec_row {α : Type} {K : ℕ} (b : (⟨1, ![K]⟩ : Shape).Idx → α)
    (h1 : (⟨1, ![K]⟩ : Shape).BroadcastsInDim ⟨2, ![1, K]⟩ ![1]) (u : Fin 1) (q : Fin K) :
    broadcastInDim ⟨2, ![1, K]⟩ ![1] h1 b (ix2 u q) = b (ix1 q) :=
  broadcastInDim_apply ![1] h1 b (ix2 u q) (ix1 q) (fun a => by
    match a with
    | ⟨0, _⟩ =>
      show q.val = if K = 1 then 0 else q.val
      split
      · have := q.isLt; omega
      · rfl)

/-- THE HOST'S COLUMN SUM: the sum of an `[M, K]` array down its first axis from a scalar zero reads, at column `q`,
    zero plus the sum of the column's entries. -/
theorem hostColSum {M K : ℕ} (Y : FVec Ideal ⟨2, ![M, K]⟩ .f32)
    (hred : (⟨2, ![M, K]⟩ : Shape).ReducesTo [0] ⟨1, ![K]⟩) (hz : 0 < (⟨0, ![]⟩ : Shape).numel) (q : Fin K) :
    Host.reduceAdd (F := Ideal) Y (constant (F := Ideal) ⟨0, ![]⟩ .f32 0x00000000#32) hred hz (ix1 q)
      = 0 + ∑ p : Fin M, Y (ix2 p q) := by
  have h : (⟨2, ![M, K]⟩ : Shape).Reduces [0] ⟨1, ![K]⟩ := ⟨hred.1, Nat.one_pos, hred.2⟩
  refine (Ideal.hostReduceAdd_single hred h Y
    (constant (F := Ideal) ⟨0, ![]⟩ .f32 0x00000000#32 (Shape.Idx.first hz)) (ix1 q)).trans ?_
  rw [constant_apply, Ideal.ofBits_zero_f32]
  refine congrArg (0 + ·) (Finset.sum_congr rfl fun k _ => congrArg Y (funext fun ax => Fin.ext ?_))
  match ax with
  | ⟨0, _⟩ => rfl
  | ⟨1, _⟩ => rfl

/-- THE HOST'S COLUMN MEANS: the column sums laid out as one row, divided by the broadcast scalar of pattern `w`. -/
theorem hostColMean {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![]) :
    Host.divf (F := Ideal)
        (broadcastInDim ⟨2, ![1, K]⟩ ![1] h1
          (Host.reduceAdd (F := Ideal) Y (constant (F := Ideal) ⟨0, ![]⟩ .f32 0x00000000#32) hred hz))
        (broadcastInDim ⟨2, ![1, K]⟩ ![] h0 (constant (F := Ideal) ⟨0, ![]⟩ .f32 w))
      = colMean (Ideal.ofBits .f32 w) Y := by
  funext i
  obtain ⟨u, q, rfl⟩ : ∃ (u : Fin 1) (q : Fin K), i = ix2 u q := ⟨i 0, i 1, eq_ix2 i⟩
  rw [hostDivf_apply, bcast_vec_row, Cert.HostLayout.bcast_scalar_mat, hostColSum]
  rfl

/-- THE HOST'S ONE-PASS VARIANCES: the column sums of the squares divided by the broadcast scalar of pattern `w`, less
    the squares of the column means, clamped below by a broadcast zero. -/
theorem hostVarOne {M K : ℕ} (Y : FVec Ideal ⟨2, ![M, K]⟩ .f32) (w : BitVec 32)
    (hred : (⟨2, ![M, K]⟩ : Shape).ReducesTo [0] ⟨1, ![K]⟩) (hz : 0 < (⟨0, ![]⟩ : Shape).numel)
    (h1 : (⟨1, ![K]⟩ : Shape).BroadcastsInDim ⟨2, ![1, K]⟩ ![1])
    (h0 : (⟨0, ![]⟩ : Shape).BroadcastsInDim ⟨2, ![1, K]⟩ ![])
    (MU : FVec Ideal ⟨2, ![1, K]⟩ .f32) (hMU : MU = colMean (Ideal.ofBits .f32 w) Y) :
    maximumf
        (subf
          (Host.divf (F := Ideal)
            (broadcastInDim ⟨2, ![1, K]⟩ ![1] h1
              (Host.reduceAdd (F := Ideal) (mulf Y Y) (constant (F := Ideal) ⟨0, ![]⟩ .f32 0x00000000#32) hred hz))
            (broadcastInDim ⟨2, ![1, K]⟩ ![] h0 (constant (F := Ideal) ⟨0, ![]⟩ .f32 w)))
          (mulf MU MU))
        (broadcastInDim ⟨2, ![1, K]⟩ ![] h0 (constant (F := Ideal) ⟨0, ![]⟩ .f32 0x00000000#32))
      = varOne (Ideal.ofBits .f32 w) Y := by
  subst hMU
  funext i
  obtain ⟨u, q, rfl⟩ : ∃ (u : Fin 1) (q : Fin K), i = ix2 u q := ⟨i 0, i 1, eq_ix2 i⟩
  rw [maximumf_apply, subf_apply, hostDivf_apply, mulf_apply, bcast_vec_row, Cert.HostLayout.bcast_scalar_mat,
    Cert.HostLayout.bcast_scalar_mat, hostColSum, constant_apply, constant_apply, Ideal.ofBits_zero_f32]
  rfl

/-- The normalisation at an index depends on the entry there and on the four one-row arrays at its column. -/
theorem bnRelu_at {M M' K K' : ℕ} (Y : Mat M K) (mu var ga be : Mat 1 K) (Y' : Mat M' K') (mu' var' ga' be' : Mat 1 K')
    (eps : EReal) (j : (⟨2, ![M', K']⟩ : Shape).Idx) (i : (⟨2, ![M, K]⟩ : Shape).Idx)
    (hY : Y' j = Y i)
    (hmu : mu' (ix2 (0 : Fin 1) (c1 j)) = mu (ix2 (0 : Fin 1) (c1 i)))
    (hvar : var' (ix2 (0 : Fin 1) (c1 j)) = var (ix2 (0 : Fin 1) (c1 i)))
    (hga : ga' (ix2 (0 : Fin 1) (c1 j)) = ga (ix2 (0 : Fin 1) (c1 i)))
    (hbe : be' (ix2 (0 : Fin 1) (c1 j)) = be (ix2 (0 : Fin 1) (c1 i))) :
    bnRelu Y' mu' var' ga' be' eps j = bnRelu Y mu var ga be eps i := by
  unfold bnRelu; rw [hY, hmu, hvar, hga, hbe]

/-- THE VECTOR UNIT'S FORM of the normalisation: each one-row array repeated down the rows, the stabiliser a splat of the
    pattern `w` added to the variances before the reciprocal square root, and the maximum with a zero splat. -/
theorem vecBnRelu {M K : ℕ} (Y : FVec Ideal ⟨2, ![M, K]⟩ .f32) (mu var ga be : FVec Ideal ⟨2, ![1, K]⟩ .f32)
    (w : BitVec 32) (hb : (⟨2, ![1, K]⟩ : Shape).Broadcasts ⟨2, ![M, K]⟩) :
    maximumf
        (addf
          (mulf
            (mulf (subf Y (broadcastTo ⟨2, ![M, K]⟩ mu hb))
              (broadcastTo ⟨2, ![M, K]⟩
                (rsqrt (addf var (broadcast ⟨2, ![1, K]⟩ (Scalar.ofBits (F := Ideal) .f32 w)))) hb))
            (broadcastTo ⟨2, ![M, K]⟩ ga hb))
          (broadcastTo ⟨2, ![M, K]⟩ be hb))
        (broadcast ⟨2, ![M, K]⟩ (Scalar.ofBits (F := Ideal) .f32 0x00000000#32))
      = bnRelu Y mu var ga be (Ideal.ofBits .f32 w) := by
  funext i
  obtain ⟨p, q, rfl⟩ : ∃ (p : Fin M) (q : Fin K), i = ix2 p q := ⟨i 0, i 1, eq_ix2 i⟩
  show max
      ((((Y (ix2 p q) - broadcastTo ⟨2, ![M, K]⟩ mu hb (ix2 p q))
          * broadcastTo ⟨2, ![M, K]⟩
              (rsqrt (addf var (broadcast ⟨2, ![1, K]⟩ (Scalar.ofBits (F := Ideal) .f32 w)))) hb (ix2 p q))
        * broadcastTo ⟨2, ![M, K]⟩ ga hb (ix2 p q))
        + broadcastTo ⟨2, ![M, K]⟩ be hb (ix2 p q))
      (Ideal.ofBits .f32 0x00000000#32) = _
  rw [broadcastTo_1b_ab_apply, broadcastTo_1b_ab_apply, broadcastTo_1b_ab_apply, broadcastTo_1b_ab_apply,
    Ideal.ofBits_zero_f32]
  rfl

end Cert.SageBn

end
-- ==== Proof.KBody1.lean ====
/-
  The second kernel body's arithmetic is the normalisation of the blocks it loads.

  The body takes a block of rows and the four one-row arrays (the column means, the column variances, the scale and the
  shift), adds the stabiliser to the variances, takes the reciprocal square root, and forms, entry by entry, the
  difference from the mean times that root times the scale plus the shift, clamped below by zero.
-/
import proofs.«167860_j85383949845212_2_alg».proof.Proof.Gen.KernelIdeal.Skeleton
import proofs.«167860_j85383949845212_2_alg».proof.Proof.LibBnStats
import Idealize.ShloMosaic.Lib.Pipeline.Value

noncomputable section

namespace Cert.KernelIdeal.Whole

open Cert.KernelIdeal Cert.KernelIdeal.Gen
open Idealize.ShloMosaic Idealize.ShloMosaic.ValueIdx

/-- The body's arithmetic is the normalisation of the block by the four one-row arrays, the stabiliser being the
    single-precision `1e-5`. -/
theorem pay1 (x0 : Vec Ideal S5000x128 .f32) (x1 x2 x3 x4 : Vec Ideal S1x128 .f32) :
    k1_pay1 x0 x1 x2 x3 x4 = Cert.SageBn.bnRelu x0 x1 x2 x3 x4 (Ideal.ofBits .f32 0x3727C5AC#32) := by
  unfold k1_pay1
  simp only [shapeCast_self]
  exact Cert.SageBn.vecBnRelu x0 x1 x2 x3 x4 0x3727C5AC#32 broadcasts_S1x128_S5000x128

end Cert.KernelIdeal.Whole

end
-- ==== Proof.KRegion1.lean ====
/-
  The second kernel region as one function of the arrays it finds.

  At each of ten blocks of 5000 rows the region reads the block of the first layer's result and the four one-row arrays —
  the column means, the column variances, the scale and the shift — and stores the block normalised column by column,
  scaled, shifted and rectified.  An entry of the normalised array depends on the entry above it and on its column's
  statistics only, so block `t` of the normalisation of the whole array is the normalisation of block `t`; the ten blocks
  tile the 50000 rows.  Hence the region's output array ends as the normalisation of the whole array.
-/
import proofs.«167860_j85383949845212_2_alg».proof.Proof.Gen.KernelIdeal.Frame
import proofs.«167860_j85383949845212_2_alg».proof.Proof.KRegion0
import proofs.«167860_j85383949845212_2_alg».proof.Proof.KBody1
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.Dense Cert.RowScale Cert.BiasRow Cert.SageDense Cert.SageNet
open Cert.SageBn

variable (V : (c : Dev nD) → (b : Ref sig .tc) → Buf (Elt Ideal) ((c : Thread nD τ).loc b))

/-- The region's result as a function of the arrays it finds: the first layer's result `%24` normalised by the one-row
    means `%31` and variances `%37`, scaled by `%38`, shifted by `%39`, rectified. -/
def G1 (c : Dev nD) : S50000x128.Idx → Elt Ideal .f32 :=
  bnRelu (V c main_v24) (V c main_v31) (V c main_v37) (V c main_v38) (V c main_v39) (Ideal.ofBits .f32 0x3727C5AC#32)

/-- The printed index maps over the grid: the row window moves with the output's, the one-row windows stay. -/
theorem idx1 : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point `t` writes back is block `t` of the normalisation of the whole array. -/
theorem flushed1 (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  rw [pay1]
  obtain ⟨e50, e51, e00, e01, e10, e11, e20, e21, e30, e31, e40, e41⟩ := idx1 t
  funext j
  show bnRelu (iblk1 V c 0 t) (iblk1 V c 1 t) (iblk1 V c 2 t) (iblk1 V c 3 t) (iblk1 V c 4 t) (Ideal.ofBits .f32 0x3727C5AC#32) j
    = G1 V c (((cfg1.win 5).blk t).view.emb j)
  have hj0 : (j 0).val < 5000 := (j 0).isLt
  have hj1 : (j 1).val < 128 := (j 1).isLt
  refine bnRelu_at (V c main_v24) (V c main_v31) (V c main_v37) (V c main_v38) (V c main_v39)
    (iblk1 V c 0 t) (iblk1 V c 1 t) (iblk1 V c 2 t) (iblk1 V c 3 t) (iblk1 V c 4 t) (Ideal.ofBits .f32 0x3727C5AC#32) j
    (((cfg1.win 5).blk t).view.emb j) ?_ ?_ ?_ ?_ ?_
  · show V c main_v24 (((cfg1.win 0).blk t).view.emb j) = V c main_v24 (((cfg1.win 5).blk t).view.emb j)
    refine congrArg (V c main_v24) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * (j 1).val = win1_5.index t (1 : Fin 2) * 128 + 1 * (j 1).val; omega
  · show V c main_v31 (((cfg1.win 1).blk t).view.emb (ix2 (0 : Fin 1) (c1 j))) = V c main_v31 (ix2 (0 : Fin 1) (c1 (((cfg1.win 5).blk t).view.emb j)))
    refine congrArg (V c main_v31) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_5.index t (1 : Fin 2) * 128 + 1 * (j 1).val; omega
  · show V c main_v37 (((cfg1.win 2).blk t).view.emb (ix2 (0 : Fin 1) (c1 j))) = V c main_v37 (ix2 (0 : Fin 1) (c1 (((cfg1.win 5).blk t).view.emb j)))
    refine congrArg (V c main_v37) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_5.index t (1 : Fin 2) * 128 + 1 * (j 1).val; omega
  · show V c main_v38 (((cfg1.win 3).blk t).view.emb (ix2 (0 : Fin 1) (c1 j))) = V c main_v38 (ix2 (0 : Fin 1) (c1 (((cfg1.win 5).blk t).view.emb j)))
    refine congrArg (V c main_v38) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega
  · show V c main_v39 (((cfg1.win 4).blk t).view.emb (ix2 (0 : Fin 1) (c1 j))) = V c main_v39 (ix2 (0 : Fin 1) (c1 (((cfg1.win 5).blk t).view.emb j)))
    refine congrArg (V c main_v39) (funext fun a => Fin.ext ?_)
    match a with
    | ⟨0, _⟩ => show win1_4.index t (0 : Fin 2) * 1 + 1 * 0 = 0; omega
    | ⟨1, _⟩ => show win1_4.index t (1 : Fin 2) * 128 + 1 * (j 1).val = win1_5.index t (1 : Fin 2) * 128 + 1 * (j 1).val; omega

/-- An index of the array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every row lies in some point's block: row `r` in block `r / 5000`. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by show (i 0).val / 5000 < 10; omega⟩, flush1_5 _, ?_⟩
  rw [mem_blk1]
  obtain ⟨e50, e51, -⟩ := idx1 ⟨(i 0).val / 5000, by show (i 0).val / 5000 < 10; omega⟩
  intro a
  match a with
  | ⟨0, _⟩ =>
    show win1_5.index _ (0 : Fin 2) * 5000 ≤ (i 0).val ∧ (i 0).val < win1_5.index _ (0 : Fin 2) * 5000 + 5000
    rw [e50]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e51]; omega

/-- The region's output array after the region: the normalisation of the array the region found. -/
theorem final1 (c : Dev nD) : (dat1 V c).arrAt 5 cfg1.N = G1 V c :=
  (dat1 V c).arrAt_eq_of_cover 5 (G1 V c) (fun t _ => flushed1 V c t) (cover1)

end Cert.KernelIdeal.Whole

end
-- ==== Proof.KRegion2.lean ====
/-
  The third kernel region as one function of the arrays it finds.

  The same body as the first region at other widths: at each of ten blocks of 5000 rows it stores one layer of the rows it
  reads — the summed neighbour rows of the normalised hidden rows scaled by the per-node factor, times the first weights,
  plus the hidden rows times the second, plus the bias row — now 64 columns wide.  A layer's entry depends on its own row
  only, the ten blocks tile the 50000 rows, and so the region's output array ends as the layer of the whole arrays.
-/
import proofs.«167860_j85383949845212_2_alg».proof.Proof.Gen.KernelIdeal.Frame
import proofs.«167860_j85383949845212_2_alg».proof.Proof.KRegion0
import proofs.«167860_j85383949845212_2_alg».proof.Proof.LibLayerAt
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)
open Cert.Dense Cert.RowScale Cert.BiasRow Cert.SageDense Cert.SageNet

variable (V : (c : Dev nD) → (b : Ref sig .tc) → Buf (Elt Ideal) ((c : Thread nD τ).loc b))

/-- The body's arithmetic is one layer of the blocks it loads. -/
theorem pay2 (x0 : Vec Ideal S5000x128 .f32) (x1 : Vec Ideal S5000x1 .f32) (x2 : Vec Ideal S5000x128 .f32)
    (x3 x5 : Vec Ideal S128x64 .f32) (x4 : Vec Ideal S1x64 .f32) :
    k2_pay1 x0 x1 x2 x3 x5 x4 = layer x0 x2 x1 x3 x5 x4 := by
  unfold k2_pay1
  simp only [shapeCast_self]
  rw [vecScaleRows, vecLin _ rfl rfl rfl rfl rfl rfl]
  rfl

/-- The region's result as a function of the arrays it finds: the layer of the aggregate `%50` of the hidden rows `%40`, the
    factor column `%12`, the two weight matrices and the bias row `%51`. -/
def G2 (c : Dev nD) : S50000x64.Idx → Elt Ideal .f32 :=
  layer (V c main_v50) (V c main_v40) (V c main_v12) (V c main_arg7) (V c main_arg9) (V c main_v51)

/-- The printed index maps over the grid: the row windows move with the output's, the weight and bias windows stay. -/
theorem idx2 : ∀ t : Fin cfg2.N, win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What point `t` writes back is block `t` of the layer of the whole arrays. -/
theorem flushed2 (c : Dev nD) (t : Fin cfg2.N) :
    (dat2 V c).flushed 6 t = ((cfg2.win 6).blk t).view.read (Elt Ideal) (G2 V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x64) hz, View.ld_unit_zero (S := S1x64) hz, View.ld_unit_zero (S := S5000x64) hz]
  rw [pay2]
  obtain ⟨e60, e61, e00, e01, e10, e11, e20, e21, e30, e31, e40, e41, e50, e51⟩ := idx2 t
  funext j
  show layer (iblk2 V c 0 t) (iblk2 V c 2 t) (iblk2 V c 1 t) (iblk2 V c 3 t) (iblk2 V c 5 t) (iblk2 V c 4 t) j
    = G2 V c (((cfg2.win 6).blk t).view.emb j)
  have hj0 : (j 0).val < 5000 := (j 0).isLt
  have hj1 : (j 1).val < 64 := (j 1).isLt
  refine layer_at (V c main_v50) (V c main_v40) (V c main_v12) (V c main_arg7) (V c main_arg9) (V c main_v51)
    (iblk2 V c 0 t) (iblk2 V c 2 t) (iblk2 V c 1 t) (iblk2 V c 3 t) (iblk2 V c 5 t) (iblk2 V c 4 t) j
    (((cfg2.win 6).blk t).view.emb j) (fun k => ?_) (fun k => ?_) ?_ (fun k => ?_) (fun k => ?_) ?_
  · show V c main_v50 (((cfg2.win 0).blk t).view.emb (ix2 (c0 j) k)) = V c main_v50 (ix2 (c0 (((cfg2.win 6).blk t).view.emb j)) k)
    refine congrArg (V c main_v50) (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * k.val = k.val; omega
  · show V c main_v40 (((cfg2.win 2).blk t).view.emb (ix2 (c0 j) k)) = V c main_v40 (ix2 (c0 (((cfg2.win 6).blk t).view.emb j)) k)
    refine congrArg (V c main_v40) (funext fun a => Fin.ext ?_)
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 128 + 1 * k.val = k.val; omega
  · show V c main_v12 (((cfg2.win 1).blk t).view.emb (ix2 (c0 j) (0 : Fin 1))) = V c main_v12 (ix2 (c0 (((cfg2.win 6).blk t).view.emb j)) (0 : Fin 1))
    refine congrArg (V c main_v12) (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 1 + 1 * 0 = 0; omega
  · show V c main_arg7 (((cfg2.win 3).blk t).view.emb (ix2 k (c1 j))) = V c main_arg7 (ix2 k (c1 (((cfg2.win 6).blk t).view.emb j)))
    refine congrArg (V c main_arg7) (funext fun a => Fin.ext ?_)
    match a with
    | ⟨0, _⟩ => show win2_3.index t (0 : Fin 2) * 128 + 1 * k.val = k.val; omega
    | ⟨1, _⟩ => show win2_3.index t (1 : Fin 2) * 64 + 1 * (j 1).val = win2_6.index t (1 : Fin 2) * 64 + 1 * (j 1).val; omega
  · show V c main_arg9 (((cfg2.win 5).blk t).view.emb (ix2 k (c1 j))) = V c main_arg9 (ix2 k (c1 (((cfg2.win 6).blk t).view.emb j)))
    refine congrArg (V c main_arg9) (funext fun a => Fin.ext ?_)
    match a with
    | ⟨0, _⟩ => show win2_5.index t (0 : Fin 2) * 128 + 1 * k.val = k.val; omega
    | ⟨1, _⟩ => show win2_5.index t (1 : Fin 2) * 64 + 1 * (j 1).val = win2_6.index t (1 : Fin 2) * 64 + 1 * (j 1).val; omega
  · show V c main_v51 (((cfg2.win 4).blk t).view.emb (ix2 (0 : Fin 1) (c1 j))) = V c main_v51 (ix2 (0 : Fin 1) (c1 (((cfg2.win 6).blk t).view.emb j)))
    refine congrArg (V c main_v51) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_6.index t (1 : Fin 2) * 64 + 1 * (j 1).val; omega

/-- An index of the array is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v52).slice (win2_6.rect t)).set ↔ _
  rw [View.set_slice_whole, Rect.mem_set_unit]
  exact Iff.rfl

/-- Every row lies in some point's block: row `r` in block `r / 5000`. -/
theorem cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  refine ⟨⟨(i 0).val / 5000, by show (i 0).val / 5000 < 10; omega⟩, flush2_6 _, ?_⟩
  rw [mem_blk2]
  obtain ⟨e60, e61, -⟩ := idx2 ⟨(i 0).val / 5000, by show (i 0).val / 5000 < 10; omega⟩
  intro a
  match a with
  | ⟨0, _⟩ =>
    show win2_6.index _ (0 : Fin 2) * 5000 ≤ (i 0).val ∧ (i 0).val < win2_6.index _ (0 : Fin 2) * 5000 + 5000
    rw [e60]; show (i 0).val / 5000 * 5000 ≤ (i 0).val ∧ (i 0).val < (i 0).val / 5000 * 5000 + 5000; omega
  | ⟨1, _⟩ =>
    show win2_6.index _ (1 : Fin 2) * 64 ≤ (i 1).val ∧ (i 1).val < win2_6.index _ (1 : Fin 2) * 64 + 64
    rw [e61]; omega

/-- The region's output array after the region: the layer of the arrays the region found. -/
theorem final2 (c : Dev nD) : (dat2 V c).arrAt 6 cfg2.N = G2 V c :=
  (dat2 V c).arrAt_eq_of_cover 6 (G2 V c) (fun t _ => flushed2 V c t) (cover2)

end Cert.KernelIdeal.Whole

end
-- ==== Proof.KValue.lean ====
/-
  The idealized kernel program's result as one function of its arguments.

  The program's last region leaves in the result buffer one layer of the arrays it finds: the aggregate of the hidden rows,
  the hidden rows, the factor column, the second layer's weights and bias row.  The hidden rows are what the second region
  left: the first region's result normalised by its column means and one-pass column variances — the host stretch between
  the regions computes them as a column sum over a broadcast count, and as the clamped difference of the mean of the
  squares and the square of the mean — scaled, shifted and rectified.  The first region's result is one layer of the
  aggregate of the features, the features, the factor column and the first layer's weights and bias row.  Composed, the
  result buffer holds the network with the one-pass variance.
-/
import proofs.«167860_j85383949845212_2_alg».proof.Proof.KRun
import proofs.«167860_j85383949845212_2_alg».proof.Proof.KWalk
import proofs.«167860_j85383949845212_2_alg».proof.Proof.KRegion0
import proofs.«167860_j85383949845212_2_alg».proof.Proof.KRegion1
import proofs.«167860_j85383949845212_2_alg».proof.Proof.KRegion2
import proofs.«167860_j85383949845212_2_alg».proof.Proof.LibBnStats

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem
open Cert.Dense Cert.RowScale Cert.SageNet Cert.SageBn Cert.SageBn.Host

variable (m : (ℓ : Loc nD τ sig) → Buf (Elt Ideal) ℓ) (ρ : Dev nD → PrngReg) (c : Dev nD)

/-- The host's column sum over the broadcast count is the column mean. -/
theorem hostMean_eq (Y : FVec Ideal S50000x128 .f32) : hostMean Y = colMean nLit Y := by
  unfold hostMean nLit
  exact hostColMean Y 0x47435000#32 reducesTo_S50000x128_S128_d0 h_S_ bcast_S128_S1x128_1 bcast_S_S1x128

/-- The host's clamped difference of the mean of the squares and the square of the mean is the one-pass variance. -/
theorem hostVar_eq (Y : FVec Ideal S50000x128 .f32) : hostVar Y = varOne nLit Y := by
  unfold hostVar nLit
  exact hostVarOne Y 0x47435000#32 reducesTo_S50000x128_S128_d0 h_S_ bcast_S128_S1x128_1 bcast_S_S1x128 (hostMean Y)
    (hostMean_eq Y)

/-- The first region's output array: the first layer. -/
theorem first_layer : yOut m ρ c
    = layer (agg (arg1 m c) (arg0 m c)) (arg0 m c) (sCol (arg1 m c)) (arg2 m c) (arg4 m c) (row (arg3 m c)) := by
  show W2 m ρ c (Proc.devRef .tc main_v24) = _
  rw [show W2 m ρ c (Proc.devRef .tc main_v24) = (dat0 (V1 m ρ) c).arrAt 6 cfg0.N from W2_arr m ρ c 6, final0]
  unfold G0
  rw [entry0_agg m ρ c, entry0_x m ρ c, entry0_factor m ρ c, entry0_wl m ρ c, entry0_wr m ρ c, entry0_bias m ρ c,
    shapeCast_col, shapeCast_row]
  rfl

/-- The second region's output array: the first layer normalised with the one-pass variance. -/
theorem hidden : hOut m ρ c
    = bnRelu (yOut m ρ c) (colMean nLit (yOut m ρ c)) (varOne nLit (yOut m ρ c)) (row (arg5 m c)) (row (arg6 m c)) epsLit := by
  show W4 m ρ c (Proc.devRef .tc main_v40) = _
  rw [show W4 m ρ c (Proc.devRef .tc main_v40) = (dat1 (V3 m ρ) c).arrAt 5 cfg1.N from W4_arr m ρ c 5, final1]
  unfold G1
  rw [entry1_y m ρ c, entry1_mean m ρ c, entry1_var m ρ c, entry1_gamma m ρ c, entry1_beta m ρ c, shapeCast_row,
    shapeCast_row, hostMean_eq, hostVar_eq]
  rfl

/-- The result buffer after the run: the network with the one-pass variance, of the arguments. -/
theorem value : W6 m ρ c (Proc.devRef .tc main_v52)
    = result varOne (arg0 m c) (arg1 m c) (arg2 m c) (arg3 m c) (arg4 m c) (arg5 m c) (arg6 m c) (arg7 m c) (arg8 m c)
        (arg9 m c) := by
  rw [show W6 m ρ c (Proc.devRef .tc main_v52) = (dat2 (V5 m ρ) c).arrAt 6 cfg2.N from W6_arr m ρ c 6, final2]
  unfold G2
  rw [entry2_agg m ρ c, entry2_h m ρ c, entry2_factor m ρ c, entry2_wl m ρ c, entry2_wr m ρ c, entry2_bias m ρ c,
    shapeCast_col, shapeCast_row, hidden m ρ c, first_layer m ρ c]
  rfl

/-- Every weakly fair execution of the program terminates, nothing faulting, with the result buffer at the network of the
    arguments and the arguments as launched. -/
theorem run : θ_run defs (onTc (τ := τ) (main (F := Ideal))) ⟨m, fun _ => 0, ρ⟩ (fun r => ∀ c : Dev nD,
      r.2.mem ((c.tc : Thread nD τ).loc main_v52)
        = result varOne (arg0 m c) (arg1 m c) (arg2 m c) (arg3 m c) (arg4 m c) (arg5 m c) (arg6 m c) (arg7 m c) (arg8 m c)
            (arg9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v52 (by decide))).trans (value m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)
    (run_all m ρ)

end Cert.KernelIdeal.Whole

end
-- ==== Proof.RefValue.lean ====
/-
  The reference program's result is the two-layer network with the two-pass variance.

  The program is read in three stretches.  The first layer: the summed neighbour rows divided by the in-degree clamped
  below by one — a degree clamped at one is never zero, so the quotient is the rows scaled by the column of reciprocals —
  then `(A · wl + b) + X · wr`, which is `A · wl + X · wr + b` since addition of extended reals is commutative and
  associative.  The normalisation: every column sum is the initial zero plus the sum over the rows, the mean is that
  over `n`, the variance is the mean of the squared deviations from the column mean (two passes over the rows), and the
  entry `(p, q)` becomes `max (((Y (p, q) − μ q) · rsqrt (v q + ε)) · γ q + β q, 0)`; the one-row arrays are read through
  the broadcasts' index maps.  The second layer repeats the first over the normalised rows with the same degrees.
-/
import proofs.«167860_j85383949845212_2_alg».proof.Proof.Agg
import proofs.«167860_j85383949845212_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem
  Cert.Dense Cert.RowScale Cert.BiasRow Cert.SageDense Cert.SageNet Cert.SageBn Cert.SageBn.Host

/-- The first mean: the summed neighbour rows over the clamped degrees are the rows scaled by the reciprocals. -/
theorem mean1 (x0 : FVec Ideal S50000x128 .f32) (x1 : Edges) :
    val_main_v22 (F := Ideal) x0 x1 = scaleRows (agg x1 x0) (sCol x1) := by
  unfold val_main_v22 val_main_v21 val_main_v20 val_main_v19
  refine (divMean (val_main_v13 (F := Ideal) x0 x1) (val_main_v18 (F := Ideal)) (val_main_v17 (F := Ideal) x1)
    bcast_S50000_S50000x1_0 bcast_S50000x1_S50000x128_0_1 (fun i => bcastOne bcast_S_S50000 i)).trans ?_
  rfl

/-- The first layer. -/
theorem layer1 (x0 : FVec Ideal S50000x128 .f32) (x1 : Edges) (x2 : FVec Ideal S128x128 .f32)
    (x3 : FVec Ideal S128 .f32) (x4 : FVec Ideal S128x128 .f32) :
    val_main_v28 (F := Ideal) x0 x1 x2 x3 x4 = layer (agg x1 x0) x0 (sCol x1) x2 x4 (row x3) := by
  unfold val_main_v28 val_main_v26 val_main_v27 val_main_v23 val_main_v25 val_main_v24
  rw [hostLin dot_S50000x128_S128x128_S50000x128_1_0_0_1_n_n rfl rfl rfl rfl rfl rfl
    (val_main_v22 (F := Ideal) x0 x1) x0 x2 x4 x3 bcast_S128_S1x128_1 bcast_S1x128_S50000x128_0_1, mean1]
  rfl

/-- The column means of the first layer's result: zero plus the sum over the rows, over `n`. -/
theorem mu_eq (x0 : FVec Ideal S50000x128 .f32) (x1 : Edges) (x2 : FVec Ideal S128x128 .f32)
    (x3 : FVec Ideal S128 .f32) (x4 : FVec Ideal S128x128 .f32) :
    val_main_v32 (F := Ideal) x0 x1 x2 x3 x4 = colMean nLit (val_main_v28 (F := Ideal) x0 x1 x2 x3 x4) := by
  funext j
  obtain ⟨u, q, rfl⟩ : ∃ (u : Fin 1) (q : Fin 128), j = ix2 u q := ⟨j 0, j 1, eq_ix2 j⟩
  rw [val_main_v32_apply, val_main_v30_apply, val_main_v29_apply, val_main_v31_apply]
  show Ideal.div (Ideal.ofBits .f32 0x00000000#32
      + ∑ k : Fin 50000, val_main_v28 (F := Ideal) x0 x1 x2 x3 x4 (idx_main_v29 (idx_main_v30 (ix2 u q)) k)) nLit
    = Ideal.div (0 + ∑ p : Fin 50000, val_main_v28 (F := Ideal) x0 x1 x2 x3 x4 (ix2 p q)) nLit
  rw [Ideal.ofBits_zero_f32]
  refine congrArg (fun t => Ideal.div (0 + t) nLit) (Finset.sum_congr rfl fun k _ => congrArg _ ?_)
  funext a
  match a with
  | ⟨0, _⟩ => rfl
  | ⟨1, _⟩ => rfl

/-- The column variances, two passes: the mean of the squared deviations from the column mean. -/
theorem var_eq (x0 : FVec Ideal S50000x128 .f32) (x1 : Edges) (x2 : FVec Ideal S128x128 .f32)
    (x3 : FVec Ideal S128 .f32) (x4 : FVec Ideal S128x128 .f32) :
    val_main_v39 (F := Ideal) x0 x1 x2 x3 x4 = varTwo nLit (val_main_v28 (F := Ideal) x0 x1 x2 x3 x4) := by
  funext j
  obtain ⟨u, q, rfl⟩ : ∃ (u : Fin 1) (q : Fin 128), j = ix2 u q := ⟨j 0, j 1, eq_ix2 j⟩
  obtain rfl : u = 0 := Subsingleton.elim _ _
  rw [val_main_v39_apply, val_main_v37_apply, val_main_v36_apply, val_main_v38_apply]
  show Ideal.div (Ideal.ofBits .f32 0x00000000#32
      + ∑ k : Fin 50000, val_main_v35 (F := Ideal) x0 x1 x2 x3 x4 (idx_main_v36 (idx_main_v37 (ix2 0 q)) k)) nLit
    = Ideal.div (0 + ∑ p : Fin 50000,
          (val_main_v28 (F := Ideal) x0 x1 x2 x3 x4 (ix2 p q) - colMean nLit (val_main_v28 (F := Ideal) x0 x1 x2 x3 x4) (ix2 0 q))
          * (val_main_v28 (F := Ideal) x0 x1 x2 x3 x4 (ix2 p q) - colMean nLit (val_main_v28 (F := Ideal) x0 x1 x2 x3 x4) (ix2 0 q))) nLit
  rw [Ideal.ofBits_zero_f32]
  refine congrArg (fun t => Ideal.div (0 + t) nLit) (Finset.sum_congr rfl fun k _ => ?_)
  have e1 : idx_main_v36 (idx_main_v37 (ix2 (0 : Fin 1) q)) k = ix2 k q := by
    funext a
    match a with
    | ⟨0, _⟩ => rfl
    | ⟨1, _⟩ => rfl
  have e2 : idx_main_v33 (ix2 k q) = ix2 (0 : Fin 1) q := by
    funext a
    match a with
    | ⟨0, _⟩ => rfl
    | ⟨1, _⟩ => rfl
  rw [e1, val_main_v35_apply, val_main_v34_apply, val_main_v33_apply, mu_eq, e2]
  rfl

/-- The normalisation, scale, shift and rectification of the first layer's result, entry by entry. -/
theorem norm_eq (x0 : FVec Ideal S50000x128 .f32) (x1 : Edges) (x2 : FVec Ideal S128x128 .f32)
    (x3 : FVec Ideal S128 .f32) (x4 : FVec Ideal S128x128 .f32) (x5 x6 : FVec Ideal S128 .f32) :
    val_main_v53 (F := Ideal) x0 x1 x2 x3 x4 x5 x6
      = bnRelu (val_main_v28 (F := Ideal) x0 x1 x2 x3 x4) (colMean nLit (val_main_v28 (F := Ideal) x0 x1 x2 x3 x4))
          (varTwo nLit (val_main_v28 (F := Ideal) x0 x1 x2 x3 x4)) (row x5) (row x6) epsLit := by
  funext i
  obtain ⟨p, q, rfl⟩ : ∃ (p : Fin 50000) (q : Fin 128), i = ix2 p q := ⟨i 0, i 1, eq_ix2 i⟩
  rw [bnRelu_apply, val_main_v53_apply, val_main_v52_apply, val_main_v49_apply, val_main_v46_apply, val_main_v41_apply,
    val_main_v40_apply, val_main_v45_apply, val_main_v44_apply, val_main_v43_apply, val_main_v42_apply, val_main_v48_apply,
    val_main_v47_apply, val_main_v51_apply, val_main_v50_apply, val_main_call0_v0_apply, mu_eq, var_eq]
  have e0 : idx_main_v40 (ix2 p q) = ix2 (0 : Fin 1) q := by
    funext a
    match a with
    | ⟨0, _⟩ => rfl
    | ⟨1, _⟩ => rfl
  have e1 : idx_main_v45 (ix2 p q) = ix2 (0 : Fin 1) q := by
    funext a
    match a with
    | ⟨0, _⟩ => rfl
    | ⟨1, _⟩ => rfl
  rw [e0, e1]
  show max ((((val_main_v28 (F := Ideal) x0 x1 x2 x3 x4 (ix2 p q)
        - colMean nLit (val_main_v28 (F := Ideal) x0 x1 x2 x3 x4) (ix2 0 q))
        * Ideal.rsqrt (varTwo nLit (val_main_v28 (F := Ideal) x0 x1 x2 x3 x4) (ix2 0 q) + epsLit))
        * x5 (idx_main_v47 (idx_main_v48 (ix2 p q)))) + x6 (idx_main_v50 (idx_main_v51 (ix2 p q))))
      (Ideal.ofBits .f32 0x00000000#32)
    = max ((((val_main_v28 (F := Ideal) x0 x1 x2 x3 x4 (ix2 p q)
        - colMean nLit (val_main_v28 (F := Ideal) x0 x1 x2 x3 x4) (ix2 0 q))
        * Ideal.rsqrt (varTwo nLit (val_main_v28 (F := Ideal) x0 x1 x2 x3 x4) (ix2 0 q) + epsLit))
        * row x5 (ix2 0 q)) + row x6 (ix2 0 q)) 0
  have e2 : idx_main_v47 (idx_main_v48 (ix2 p q)) = ix1 q := by
    funext a
    match a with
    | ⟨0, _⟩ => rfl
  have e3 : idx_main_v50 (idx_main_v51 (ix2 p q)) = ix1 q := by
    funext a
    match a with
    | ⟨0, _⟩ => rfl
  rw [Ideal.ofBits_zero_f32, e2, e3, row_apply, row_apply]

/-- The second mean, over the normalised rows, with the same degrees. -/
theorem mean2 (x0 : FVec Ideal S50000x128 .f32) (x1 : Edges) (x2 : FVec Ideal S128x128 .f32)
    (x3 : FVec Ideal S128 .f32) (x4 : FVec Ideal S128x128 .f32) (x5 x6 : FVec Ideal S128 .f32) :
    val_main_v72 (F := Ideal) x0 x1 x2 x3 x4 x5 x6
      = scaleRows (agg x1 (val_main_v53 (F := Ideal) x0 x1 x2 x3 x4 x5 x6)) (sCol x1) := by
  unfold val_main_v72 val_main_v71 val_main_v70 val_main_v69
  refine (divMean (val_main_v63 (F := Ideal) x0 x1 x2 x3 x4 x5 x6) (val_main_v68 (F := Ideal))
    (val_main_v67 (F := Ideal) x1) bcast_S50000_S50000x1_0 bcast_S50000x1_S50000x128_0_1
    (fun i => bcastOne bcast_S_S50000 i)).trans ?_
  rfl

/-- The second layer. -/
theorem layer2 (x0 : FVec Ideal S50000x128 .f32) (x1 : Edges) (x2 : FVec Ideal S128x128 .f32)
    (x3 : FVec Ideal S128 .f32) (x4 : FVec Ideal S128x128 .f32) (x5 x6 : FVec Ideal S128 .f32)
    (x7 : FVec Ideal S128x64 .f32) (x8 : FVec Ideal S64 .f32) (x9 : FVec Ideal S128x64 .f32) :
    val_main_v78 (F := Ideal) x0 x1 x2 x3 x4 x5 x6 x7 x8 x9
      = layer (agg x1 (val_main_v53 (F := Ideal) x0 x1 x2 x3 x4 x5 x6)) (val_main_v53 (F := Ideal) x0 x1 x2 x3 x4 x5 x6)
          (sCol x1) x7 x9 (row x8) := by
  unfold val_main_v78 val_main_v76 val_main_v77 val_main_v73 val_main_v75 val_main_v74
  rw [hostLin dot_S50000x128_S128x64_S50000x64_1_0_0_1_n_n rfl rfl rfl rfl rfl rfl
    (val_main_v72 (F := Ideal) x0 x1 x2 x3 x4 x5 x6) (val_main_v53 (F := Ideal) x0 x1 x2 x3 x4 x5 x6) x7 x9 x8
    bcast_S64_S1x64_1 bcast_S1x64_S50000x64_0_1, mean2]
  rfl

/-- The reference's result is the network with the two-pass variance. -/
theorem value (x0 : FVec Ideal S50000x128 .f32) (x1 : Edges) (x2 : FVec Ideal S128x128 .f32)
    (x3 : FVec Ideal S128 .f32) (x4 : FVec Ideal S128x128 .f32) (x5 x6 : FVec Ideal S128 .f32)
    (x7 : FVec Ideal S128x64 .f32) (x8 : FVec Ideal S64 .f32) (x9 : FVec Ideal S128x64 .f32) :
    val_main_v78 (F := Ideal) x0 x1 x2 x3 x4 x5 x6 x7 x8 x9 = result varTwo x0 x1 x2 x3 x4 x5 x6 x7 x8 x9 := by
  rw [layer2, norm_eq, layer1]
  unfold result Cert.SageBn.net
  rfl

/-- The same for the value the run returns, as a function of the arguments' contents. -/
theorem res_value (m : (ℓ : Loc nD τ sig) → Buf (Elt Ideal) ℓ) (c : Dev nD) :
    Cert.ReferenceIdeal.Value.res_out0 (F := Ideal) m c
      = result varTwo (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) :=
  (val_main_v78_eq (F := Ideal) m c).trans (value _ _ _ _ _ _ _ _ _ _)

end Cert.ReferenceIdeal.RefValue

end
-- ==== Proof.Finite.lean ====
/-
  What the claim's precondition says of the float inputs. The precondition is a single boolean: the conjunction, over the
  nine float arrays, of "every entry x satisfies |x| < +∞", where |x| is max x (−x) on the extended reals and +∞ is the
  value the word 0x7F800000 denotes. An extended real is ⊥, a real number or ⊤; max x (−x) is ⊤ at both ⊥ and ⊤, so the
  strict inequality singles out the real numbers. Hence, when the precondition holds, every entry of every float input
  is (the coercion of) a real number.
-/
import Idealize.ShloMosaic.Lib.ReduceAll
import Idealize.ShloMosaic.Lib.ValueIdx
import Idealize.ShloMosaic.PureOps.Ideal.Laws
import proofs.«167860_j85383949845212_2_alg».proof.Pre_finite_inputs
import proofs.«167860_j85383949845212_2_alg».proof.Proof.Gen.Pre_finite_inputs
import proofs.«167860_j85383949845212_2_alg».proof.Proof.LibGcnStats

noncomputable section

namespace Cert.SageBn.Finite

open Idealize.ShloMosaic Cert.Pre_finite_inputs Cert.GcnStats

/-- The shape of a scalar has exactly one index. -/
instance : Subsingleton S_.Idx := ⟨fun a b => funext fun d => d.elim0⟩

/-- The word 0x7F800000 (sign 0, exponent all ones, significand 0) denotes +∞. -/
theorem ofBits_inf : Ideal.ofBits .f32 0x7F800000#32 = (⊤ : EReal) := by
  simp [Ideal.ofBits, Ideal.ieee]

/-- An extended real whose absolute value max x (−x) lies strictly below ⊤ is a real number: at ⊥ and at ⊤ the
    absolute value is ⊤ itself. -/
theorem isReal_of_abs_lt_top (x : EReal) (h : Ideal.cmp .olt (max x (-x)) ⊤ = 1#1) : IsReal x := by
  induction x using EReal.rec with
  | bot => simp [Ideal.cmp] at h
  | coe r => exact ⟨r, rfl⟩
  | top => simp [Ideal.cmp] at h

/-- One conjunct of the precondition: if the conjunction over all entries of |x| < +∞ is true, every entry of x is
    a real number. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32)))
          init hr hu j = 1#1) :
    ∀ i, IsReal (x i) := by
  intro i
  have h := Host.reduce_andi_all _ init hr hu j e i
  refine isReal_of_abs_lt_top (x i) ?_
  rw [← ofBits_inf]
  exact h

/-- A conjunction of two booleans, read at an index, is true only when both are. -/
theorem andi_split {s : Shape} (a b : IVec s 1) (i : s.Idx) (h : andi a b i = 1#1) : a i = 1#1 ∧ b i = 1#1 :=
  IntOp.andi_eq_one.1 h

/-- The precondition decoded: when it holds, every entry of each of the nine float inputs is a real number
    (the integer edge array carries no condition). -/
theorem real_of_pre_all (x0 : FVec Ideal S50000x128 .f32) (x1 : IVec S2x600000 32) (x2 : FVec Ideal S128x128 .f32)
    (x3 : FVec Ideal S128 .f32) (x4 : FVec Ideal S128x128 .f32) (x5 : FVec Ideal S128 .f32) (x6 : FVec Ideal S128 .f32)
    (x7 : FVec Ideal S128x64 .f32) (x8 : FVec Ideal S64 .f32) (x9 : FVec Ideal S128x64 .f32)
    (h : Cert.Pre_finite_inputs.fn (F := Ideal) x0 x1 x2 x3 x4 x5 x6 x7 x8 x9 = fun _ => 1#1) :
    (∀ i, IsReal (x0 i)) ∧ (∀ i, IsReal (x2 i)) ∧ (∀ i, IsReal (x3 i)) ∧ (∀ i, IsReal (x4 i)) ∧
      (∀ i, IsReal (x5 i)) ∧ (∀ i, IsReal (x6 i)) ∧ (∀ i, IsReal (x7 i)) ∧ (∀ i, IsReal (x8 i)) ∧
      (∀ i, IsReal (x9 i)) := by
  have h0 := congrFun h ValueIdx.ix0
  dsimp only [fn, fn_part1, fn_part2] at h0
  obtain ⟨h0, e9⟩ := andi_split _ _ _ h0
  obtain ⟨h0, e8⟩ := andi_split _ _ _ h0
  obtain ⟨h0, e7⟩ := andi_split _ _ _ h0
  obtain ⟨h0, e6⟩ := andi_split _ _ _ h0
  obtain ⟨h0, e5⟩ := andi_split _ _ _ h0
  obtain ⟨h0, e4⟩ := andi_split _ _ _ h0
  obtain ⟨h0, e3⟩ := andi_split _ _ _ h0
  obtain ⟨e0, e2⟩ := andi_split _ _ _ h0
  exact ⟨all_real x0 _ _ _ _ _ e0, all_real x2 _ _ _ _ _ e2, all_real x3 _ _ _ _ _ e3, all_real x4 _ _ _ _ _ e4,
    all_real x5 _ _ _ _ _ e5, all_real x6 _ _ _ _ _ e6, all_real x7 _ _ _ _ _ e7, all_real x8 _ _ _ _ _ e8,
    all_real x9 _ _ _ _ _ e9⟩

/-- The four inputs the first layer reads — the features, the two weight matrices and the bias — are arrays of
    real numbers when the precondition holds. -/
theorem real_of_pre (x0 : FVec Ideal S50000x128 .f32) (x1 : IVec S2x600000 32) (x2 : FVec Ideal S128x128 .f32)
    (x3 : FVec Ideal S128 .f32) (x4 : FVec Ideal S128x128 .f32) (x5 : FVec Ideal S128 .f32) (x6 : FVec Ideal S128 .f32)
    (x7 : FVec Ideal S128x64 .f32) (x8 : FVec Ideal S64 .f32) (x9 : FVec Ideal S128x64 .f32)
    (h : Cert.Pre_finite_inputs.fn (F := Ideal) x0 x1 x2 x3 x4 x5 x6 x7 x8 x9 = fun _ => 1#1) :
    (∀ i, IsReal (x0 i)) ∧ (∀ i, IsReal (x2 i)) ∧ (∀ i, IsReal (x3 i)) ∧ (∀ i, IsReal (x4 i)) := by
  obtain ⟨r0, r2, r3, r4, -⟩ := real_of_pre_all x0 x1 x2 x3 x4 x5 x6 x7 x8 x9 h
  exact ⟨r0, r2, r3, r4⟩

end Cert.SageBn.Finite
-- ==== Proof.LibSegmentSum.lean ====
/-
  A segment sum over edges, read at one entry: the accumulating scatter as a plain sum over edges.

  A segment sum scatters one update per edge into an operand and adds. Two shapes occur. ROWS: updates `[M, C]` go into
  an operand `[N, C]` at a column `[M, 1]` of scatter indices; the updates' second axis is the one window axis, the
  operand's first axis is inserted and is the one the scatter index names, and the index vector lies along the column's
  second axis. VECTOR: updates `[M]` go into an operand `[N]` at the same column of scatter indices; there is no window
  axis, the operand's only axis is inserted and named by the scatter index.

  An update lands at start plus window coordinate on every operand axis. On the named axis the start is the edge's scatter
  index read as a SIGNED integer, not clamped, and the window coordinate is zero; on the rows' column axis the start is
  zero and the window coordinate is the update's column. An update whose landing place is outside the operand is dropped.
  Hence the update of edge `e` (in column `q`) lands on row `p` (column `q'`) exactly when the scatter index of `e`, read
  signed, equals `p` (and `q = q'`): a negative or too large index names no row and contributes nothing.

  At the exact-arithmetic instance the accumulating scatter at an entry is that entry plus the sum of all updates landing
  on it. Reindexing the landing updates by their edge (the map `e ↦ (e, q)`, resp. `e ↦ (e)`, is a bijection from the
  edges whose index is `p` onto the updates landing on the entry) gives the scatter at `(p, q)` as
  `x[p, q] + ∑ over edges e with idx[e, 0] = p of upd[e, q]`, and at `p` as `x[p] + ∑ over the same edges of upd[e]`.

  The dimension numbers enter through their fields, so the statements apply to any record with those fields.
-/
import Idealize.ShloMosaic.PureOps
import Idealize.ShloMosaic.Lib.ValueIdx
import Idealize.ShloMosaic.PureOps.Ideal

noncomputable section

namespace Cert.SegmentSum

open Idealize.ShloMosaic Idealize.ShloMosaic.ValueIdx

/-! ## Rows: updates `[M, C]` into an operand `[N, C]` -/

/-- Rows: the window start on the row axis is the scatter index of the edge, read signed. -/
theorem rows_start_zero {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) :
    d.start (ix2 e q) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[1], [0], [0], 1, wf⟩ : ScatterDims ⟨2, ![N, C]⟩ ⟨2, ![M, 1]⟩ ⟨2, ![M, C]⟩).siIdx (ix2 e q)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Rows: the column axis is not named by the scatter index, so its window start is zero. -/
theorem rows_start_one {N C M w : Nat} (d : ScatterDims ⟨2, ![N, C]⟩ ⟨2, ![M, 1]⟩ ⟨2, ![M, C]⟩)
    (h3 : d.scatterDimsToOperandDims = [0]) (idx : IVec ⟨2, ![M, 1]⟩ w) (j : (⟨2, ![M, C]⟩ : Shape).Idx) :
    d.start j idx 1 = 0 := by
  unfold ScatterDims.start
  rw [dif_neg (by rw [h3]; simp)]

/-- Rows: the row axis is inserted, so its window coordinate is zero. -/
theorem rows_window_zero {N C M : Nat} (d : ScatterDims ⟨2, ![N, C]⟩ ⟨2, ![M, 1]⟩ ⟨2, ![M, C]⟩)
    (h2 : d.insertedWindowDims = [0]) (j : (⟨2, ![M, C]⟩ : Shape).Idx) : d.window j 0 = 0 := by
  unfold ScatterDims.window
  rw [dif_neg (by simp [ScatterDims.sKept, Shape.kept, h2])]

/-- Rows: the window coordinate on the column axis is the update's column. -/
theorem rows_window_one {N C M : Nat} (d : ScatterDims ⟨2, ![N, C]⟩ ⟨2, ![M, 1]⟩ ⟨2, ![M, C]⟩)
    (h1 : d.updateWindowDims = [1]) (h2 : d.insertedWindowDims = [0]) (e : Fin M) (q : Fin C) :
    d.window (ix2 e q) 1 = q.val := by
  obtain ⟨uw, iw, sd, iv, wf⟩ := d
  dsimp only at h1 h2
  subst h1 h2
  unfold ScatterDims.window
  rw [dif_pos (by simp [ScatterDims.sKept, Shape.kept])]
  rfl

/-- ROWS, WHERE AN UPDATE LANDS: the update at `(e, q)` lands on the entry `(p, q')` exactly when the scatter index of
    edge `e`, read signed, is the row `p`, and the columns agree. -/
theorem rows_lands_iff {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (e : Fin M) (q : Fin C) (p : Fin N) (q' : Fin C) :
    d.resultIdx? (ix2 e q) idx = some (ix2 p q') ↔ (idx (ix2 e (0 : Fin 1))).toInt = (p.val : Int) ∧ q = q' := by
  have hs0 := rows_start_zero d h1 h2 h3 h4 idx e q
  have hs1 := rows_start_one d h3 idx (ix2 e q)
  have hw0 := rows_window_zero d h2 (ix2 e q)
  have hw1 := rows_window_one d h1 h2 e q
  unfold ScatterDims.resultIdx?
  constructor
  · intro h
    split at h
    · rename_i hb
      have hi := Option.some.inj h
      have b0 := (hb 0).1
      have e0 : (d.start (ix2 e q) idx 0 + (d.window (ix2 e q) 0 : Int)).toNat = p.val :=
        congrArg (fun f : (⟨2, ![N, C]⟩ : Shape).Idx => (f 0).val) hi
      have e1 : (d.start (ix2 e q) idx 1 + (d.window (ix2 e q) 1 : Int)).toNat = q'.val :=
        congrArg (fun f : (⟨2, ![N, C]⟩ : Shape).Idx => (f 1).val) hi
      rw [hs0, hw0] at e0 b0
      rw [hs1, hw1] at e1
      exact ⟨by omega, Fin.ext (by omega)⟩
    · exact absurd h (by simp)
  · rintro ⟨ht, rfl⟩
    have hb : ∀ a, 0 ≤ d.start (ix2 e q) idx a + d.window (ix2 e q) a ∧
        d.start (ix2 e q) idx a + d.window (ix2 e q) a < (⟨2, ![N, C]⟩ : Shape).size a := by
      intro a
      match a with
      | ⟨0, _⟩ =>
        show 0 ≤ d.start (ix2 e q) idx 0 + (d.window (ix2 e q) 0 : Int) ∧
          d.start (ix2 e q) idx 0 + (d.window (ix2 e q) 0 : Int) < (N : Int)
        rw [hs0, hw0, ht]; have := p.isLt; omega
      | ⟨1, _⟩ =>
        show 0 ≤ d.start (ix2 e q) idx 1 + (d.window (ix2 e q) 1 : Int) ∧
          d.start (ix2 e q) idx 1 + (d.window (ix2 e q) 1 : Int) < (C : Int)
        rw [hs1, hw1]; have := q.isLt; omega
    rw [dif_pos hb]
    congr 1
    funext a; refine Fin.ext ?_
    match a with
    | ⟨0, _⟩ =>
      show (d.start (ix2 e q) idx 0 + (d.window (ix2 e q) 0 : Int)).toNat = p.val
      rw [hs0, hw0, ht]; omega
    | ⟨1, _⟩ =>
      show (d.start (ix2 e q) idx 1 + (d.window (ix2 e q) 1 : Int)).toNat = q.val
      rw [hs1, hw1]; omega

/-- ROWS, THE SEGMENT SUM AT AN ENTRY: the accumulating scatter at `(p, q)` is the operand's entry plus the sum, over the
    edges whose scatter index read signed is the row `p`, of the updates' entries in column `q`. -/
theorem segSumRows_apply {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (idx : IVec ⟨2, ![M, 1]⟩ w) (x : FVec Ideal ⟨2, ![N, C]⟩ .f32)
    (upd : FVec Ideal ⟨2, ![M, C]⟩ .f32) (p : Fin N) (q : Fin C) :
    Host.scatterAdd (F := Ideal) d x idx upd (ix2 p q) = x (ix2 p q) +
      ∑ e ∈ Finset.univ.filter (fun e : Fin M => (idx (ix2 e (0 : Fin 1))).toInt = (p.val : Int)), upd (ix2 e q) := by
  show x (ix2 p q) + ∑ j ∈ Finset.univ.filter (fun j => d.resultIdx? j idx = some (ix2 p q)), upd j = _
  congr 1
  symm
  refine Finset.sum_nbij' (fun e : Fin M => ix2 e q) (fun j : (⟨2, ![M, C]⟩ : Shape).Idx => (j 0 : Fin M)) ?_ ?_ ?_ ?_ ?_
  · intro e he
    exact Finset.mem_filter.2 ⟨Finset.mem_univ _,
      (rows_lands_iff d h1 h2 h3 h4 idx e q p q).2 ⟨(Finset.mem_filter.1 he).2, rfl⟩⟩
  · intro j hj
    have hj2 := (Finset.mem_filter.1 hj).2
    rw [eq_ix2 j] at hj2
    exact Finset.mem_filter.2 ⟨Finset.mem_univ _, ((rows_lands_iff d h1 h2 h3 h4 idx (j 0) (j 1) p q).1 hj2).1⟩
  · intro e _
    rfl
  · intro j hj
    have hj2 := (Finset.mem_filter.1 hj).2
    rw [eq_ix2 j] at hj2
    have hq := ((rows_lands_iff d h1 h2 h3 h4 idx (j 0) (j 1) p q).1 hj2).2
    show ix2 (j 0) q = j
    rw [← hq]
    exact (eq_ix2 j).symm
  · intro e _
    rfl

/-! ## Vector: updates `[M]` into an operand `[N]` -/

/-- Vector: the window start on the only axis is the scatter index of the edge, read signed. -/
theorem vec_start_zero {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) :
    d.start (ix1 e) idx 0 = (idx (ix2 e (0 : Fin 1))).toInt := by
  obtain ⟨uw, iw, sd, iv, wf⟩ := d
  dsimp only at h1 h2 h3 h4
  subst h1 h2 h3 h4
  unfold ScatterDims.start
  rw [dif_pos (List.mem_singleton.mpr rfl)]
  have hsi : (⟨[], [0], [0], 1, wf⟩ : ScatterDims ⟨1, ![N]⟩ ⟨2, ![M, 1]⟩ ⟨1, ![M]⟩).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Vector: the only axis is inserted, so its window coordinate is zero. -/
theorem vec_window_zero {N M : Nat} (d : ScatterDims ⟨1, ![N]⟩ ⟨2, ![M, 1]⟩ ⟨1, ![M]⟩)
    (h2 : d.insertedWindowDims = [0]) (j : (⟨1, ![M]⟩ : Shape).Idx) : d.window j 0 = 0 := by
  unfold ScatterDims.window
  rw [dif_neg (by simp [ScatterDims.sKept, Shape.kept, h2])]

/-- VECTOR, WHERE AN UPDATE LANDS: the update of edge `e` lands on the entry `p` exactly when the scatter index of `e`,
    read signed, is `p`. -/
theorem vec_lands_iff {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (e : Fin M) (p : Fin N) :
    d.resultIdx? (ix1 e) idx = some (ix1 p) ↔ (idx (ix2 e (0 : Fin 1))).toInt = (p.val : Int) := by
  have hs0 := vec_start_zero d h1 h2 h3 h4 idx e
  have hw0 := vec_window_zero d h2 (ix1 e)
  unfold ScatterDims.resultIdx?
  constructor
  · intro h
    split at h
    · rename_i hb
      have hi := Option.some.inj h
      have b0 := (hb 0).1
      have e0 : (d.start (ix1 e) idx 0 + (d.window (ix1 e) 0 : Int)).toNat = p.val :=
        congrArg (fun f : (⟨1, ![N]⟩ : Shape).Idx => (f 0).val) hi
      rw [hs0, hw0] at e0 b0
      omega
    · exact absurd h (by simp)
  · intro ht
    have hb : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + (d.window (ix1 e) 0 : Int) ∧
          d.start (ix1 e) idx 0 + (d.window (ix1 e) 0 : Int) < (N : Int)
        rw [hs0, hw0, ht]; have := p.isLt; omega
    rw [dif_pos hb]
    congr 1
    funext a; refine Fin.ext ?_
    match a with
    | ⟨0, _⟩ =>
      show (d.start (ix1 e) idx 0 + (d.window (ix1 e) 0 : Int)).toNat = p.val
      rw [hs0, hw0, ht]; omega

/-- VECTOR, THE SEGMENT SUM AT AN ENTRY: the accumulating scatter at `p` is the operand's entry plus the sum, over the
    edges whose scatter index read signed is `p`, of the updates' entries. -/
theorem segSumVec_apply {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (x : FVec Ideal ⟨1, ![N]⟩ .f32)
    (upd : FVec Ideal ⟨1, ![M]⟩ .f32) (p : Fin N) :
    Host.scatterAdd (F := Ideal) d x idx upd (ix1 p) = x (ix1 p) +
      ∑ e ∈ Finset.univ.filter (fun e : Fin M => (idx (ix2 e (0 : Fin 1))).toInt = (p.val : Int)), upd (ix1 e) := by
  show x (ix1 p) + ∑ j ∈ Finset.univ.filter (fun j => d.resultIdx? j idx = some (ix1 p)), upd j = _
  congr 1
  symm
  refine Finset.sum_nbij' (fun e : Fin M => ix1 e) (fun j : (⟨1, ![M]⟩ : Shape).Idx => (j 0 : Fin M)) ?_ ?_ ?_ ?_ ?_
  · intro e he
    exact Finset.mem_filter.2 ⟨Finset.mem_univ _,
      (vec_lands_iff d h1 h2 h3 h4 idx e p).2 (Finset.mem_filter.1 he).2⟩
  · intro j hj
    have hj2 := (Finset.mem_filter.1 hj).2
    rw [eq_ix1 j] at hj2
    exact Finset.mem_filter.2 ⟨Finset.mem_univ _, (vec_lands_iff d h1 h2 h3 h4 idx (j 0) p).1 hj2⟩
  · intro e _
    rfl
  · intro j _
    exact (eq_ix1 j).symm
  · intro e _
    rfl

end Cert.SegmentSum

end
-- ==== Proof.LibGatherVec.lean ====
/-
  A gather of single entries of a vector at a column of start indices, read at an index.

  `x[idx]` for a flat array `x : [N]` and an integer array `idx : [M]` reaches the host as a gather whose start indices are
  the column `[M, 1]`: no offset axis, the operand's one axis collapsed, slices of one entry, the index vector along the
  column's second axis. Result entry `s` is `x` at the start index `idx[s, 0]`, read as a signed integer and clamped into
  `[0, N − 1]`, as every start index of a gather is clamped.
-/
import Idealize.ShloMosaic.Lib.ValueIdx

noncomputable section

namespace Cert.GatherVec

open Idealize.ShloMosaic Idealize.ShloMosaic.ValueIdx

variable {α : Type}

/-- Those dimension numbers for an operand `[N]`, start indices `[M, 1]` and a result `[M]`. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `s`: the operand at the start index `idx[s, 0]`, read signed and clamped into `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (s : Fin M) :
    Host.gather (vecDims N M wf) x idx (ix1 s)
      = x (ix1 ⟨min (idx (ix2 s (0 : Fin 1))).toInt.toNat (N - 1), by omega⟩) := by
  unfold Host.gather
  congr 1
  funext a
  obtain rfl : a = 0 := Subsingleton.elim _ _
  refine Fin.ext ?_
  show (vecDims N M wf).start (ix1 s) idx 0 + (vecDims N M wf).batchCoord (ix1 s) 0 + (vecDims N M wf).offCoord (ix1 s) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 s) ⟨List.idxOf (0 : Fin 1) (vecDims N M wf).startIndexMap,
      List.idxOf_lt_length_iff.2 (List.mem_singleton.mpr rfl)⟩ = ix2 s (0 : Fin 1) := by
    funext b; refine Fin.ext ?_
    match b with
    | ⟨0, _⟩ => rfl
    | ⟨1, _⟩ => rfl
  rw [hsi]
  rfl

end Cert.GatherVec

end
-- ==== Proof.LibGatherRows.lean ====
/-
  A gather of whole rows of a rank-2 array at a column of start indices, read at an index.

  `x[idx]` for an array `x : [N, C]` and an integer array `idx : [M]` reaches the host as a gather whose start indices are
  the column `[M, 1]`: the result's second axis is the one offset axis, the operand's first axis is collapsed and is the
  one the start index names, slices are one row `[1, C]`, the index vector lies along the column's second axis. Result
  entry `(s, q)` is `x` at row `idx[s, 0]`, read as a signed integer and clamped into `[0, N − 1]` as every start index of
  a gather is clamped, and column `q`. The dimension numbers enter through their fields, so any record with these fields
  reads this way; the gather of single entries of a vector is restated in the same form.
-/
import Idealize.ShloMosaic.Lib.ValueIdx
import proofs.«167860_j85383949845212_2_alg».proof.Proof.LibGatherVec

noncomputable section

namespace Cert.GatherRows

open Idealize.ShloMosaic Idealize.ShloMosaic.ValueIdx

variable {α : Type}

/-- Two records of gather dimension numbers with the same fields are the same record. -/
theorem gatherDims_eq {s si t : Shape} (d d' : GatherDims s si t) (h1 : d.offsetDims = d'.offsetDims)
    (h2 : d.collapsedSliceDims = d'.collapsedSliceDims) (h3 : d.operandBatchingDims = d'.operandBatchingDims)
    (h4 : d.startIndicesBatchingDims = d'.startIndicesBatchingDims) (h5 : d.startIndexMap = d'.startIndexMap)
    (h6 : d.indexVectorDim = d'.indexVectorDim) (h7 : d.sliceSizes = d'.sliceSizes) : d = d' := by
  obtain ⟨od, cd, ob, sb, sm, iv, ss, wf⟩ := d
  obtain ⟨od', cd', ob', sb', sm', iv', ss', wf'⟩ := d'
  dsimp only at h1 h2 h3 h4 h5 h6 h7
  subst h1 h2 h3 h4 h5 h6 h7
  rfl

/-- THE GATHER OF ROWS READ AT `(s, q)`: the operand at row `idx[s, 0]`, read signed and clamped into `[0, N − 1]`, and
    column `q`. -/
theorem gather_rows_apply {N C M w : Nat} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![M, 1]⟩ w) (s : Fin M) (q : Fin C) :
    Host.gather d x idx (ix2 s q)
      = x (ix2 ⟨min (idx (ix2 s (0 : Fin 1))).toInt.toNat (N - 1), by omega⟩ q) := by
  obtain ⟨od, cd, ob, sb, sm, iv, ss, wf⟩ := d
  dsimp only at h1 h2 h3 h4 h5 h6 h7
  subst h1 h2 h3 h4 h5 h6 h7
  generalize hD : (⟨[1], [0], [], [], [0], 1, ![1, C], wf⟩ : GatherDims ⟨2, ![N, C]⟩ ⟨2, ![M, 1]⟩ ⟨2, ![M, C]⟩) = D
  have hsm : D.startIndexMap = [0] := by subst hD; rfl
  have hob : D.operandBatchingDims = [] := by subst hD; rfl
  have hcd : D.collapsedSliceDims = [0] := by subst hD; rfl
  unfold Host.gather
  congr 1
  funext a
  refine Fin.ext ?_
  match a with
  | ⟨0, _⟩ =>
    show D.start (ix2 s q) idx 0 + D.batchCoord (ix2 s q) 0 + D.offCoord (ix2 s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[1], [0], [], [], [0], 1, ![1, C], wf⟩ : GatherDims ⟨2, ![N, C]⟩ ⟨2, ![M, 1]⟩ ⟨2, ![M, C]⟩).siIdx (ix2 s q)
        ⟨List.idxOf (0 : Fin 2) [0], List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show D.start (ix2 s q) idx 1 + D.batchCoord (ix2 s q) 1 + D.offCoord (ix2 s q) 1 = q.val
    rw [GatherDims.batchCoord_eq_zero _ _ _ (by rw [hob]; exact List.not_mem_nil)]
    have hst : D.start (ix2 s q) idx 1 = 0 := by
      unfold GatherDims.start
      rw [dif_neg (by rw [hsm]; exact fun hm => Nat.one_ne_zero (congrArg Fin.val (List.mem_singleton.mp hm)))]
    rw [hst]
    subst hD
    unfold GatherDims.offCoord
    rw [dif_pos ((GatherDims.mem_sKept _ _).mpr
      ⟨fun hm => Nat.one_ne_zero (congrArg Fin.val (List.mem_singleton.mp hm)), List.not_mem_nil⟩)]
    simp only [Nat.zero_add, Nat.add_zero]
    rfl

/-- THE GATHER OF ENTRIES OF A VECTOR READ AT `s`, the dimension numbers given by their fields: the operand at the start
    index `idx[s, 0]`, read signed and clamped into `[0, N − 1]`. -/
theorem gather_vec_apply' {N M w : Nat} (hN : 0 < N) (d : GatherDims ⟨1, ![N]⟩ ⟨2, ![M, 1]⟩ ⟨1, ![M]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![M, 1]⟩ w) (s : Fin M) :
    Host.gather d x idx (ix1 s) = x (ix1 ⟨min (idx (ix2 s (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact Cert.GatherVec.gather_vec_apply hN wf x idx s

end Cert.GatherRows

end
-- ==== Proof.RealAgg.lean ====
/-
  The aggregate of a real array is real, and the per-node factor is real.

  At an entry `(p, q)` the aggregate is the zero array's entry plus the sum, over the edges whose destination entry read
  signed is `p`, of the gathered rows' entries in column `q`; a gathered entry is an entry of the array that is gathered
  from (the row at the clamped start index), so every term is a real number, and a finite sum of real numbers added to
  zero is a real number.  The degree at `p` is zero plus a one per edge of the same finite set, a real number; the larger
  of it and one is a real number that is not zero, and one divided by a nonzero real number is a real number.
-/
import proofs.«167860_j85383949845212_2_alg».proof.Proof.Agg
import proofs.«167860_j85383949845212_2_alg».proof.Proof.LibSegmentSum
import proofs.«167860_j85383949845212_2_alg».proof.Proof.LibGatherRows
import proofs.«167860_j85383949845212_2_alg».proof.Proof.LibGcnStats
import proofs.«167860_j85383949845212_2_alg».proof.Proof.LibSageDense
import proofs.«167860_j85383949845212_2_alg».proof.Proof.LibSageLayer
import proofs.«167860_j85383949845212_2_alg».proof.Proof.LibHostLayout

noncomputable section

namespace Cert.SageBn.Host

open Cert.ReferenceIdeal Cert.ReferenceIdeal.Gen Idealize.ShloMosaic Idealize.ShloMosaic.ValueIdx Cert.Dense Cert.RowScale
  Cert.GcnStats

/-- The larger of two real numbers is a real number. -/
theorem isReal_max {a b : EReal} (ha : IsReal a) (hb : IsReal b) : IsReal (max a b) := by
  rcases max_choice a b with h | h
  · rw [h]; exact ha
  · rw [h]; exact hb

/-- One divided by a real number clamped below by one is a real number. -/
theorem isReal_recip_max_one {a : EReal} (ha : IsReal a) : IsReal (Ideal.div 1 (max a 1)) := by
  obtain ⟨r, hr⟩ := isReal_max ha isReal_one
  have hne : max a 1 ≠ 0 := Cert.Sage.max_one_ne_zero a
  rw [hr] at hne ⊢
  exact isReal_div_coe isReal_one (fun h0 => hne (by rw [h0, EReal.coe_zero]))

/-- The zero array reads zero at every entry. -/
theorem zeroMat_apply (p : Fin 50000) (q : Fin 128) :
    broadcastInDim S50000x128 ![] bcast_S_S50000x128 (constant (F := Ideal) S_ .f32 0x00000000#32) (ix2 p q) = 0 := by
  rw [Cert.HostLayout.bcast_scalar_mat]
  exact Ideal.ofBits_zero_f32

/-- The zero vector reads zero at every entry. -/
theorem zeroVec_apply (p : Fin 50000) :
    broadcastInDim S50000 ![] bcast_S_S50000 (constant (F := Ideal) S_ .f32 0x00000000#32) (ix1 p) = 0 := by
  rw [broadcastInDim_apply ![] bcast_S_S50000 _ (ix1 p) ix0 (fun a => a.elim0)]
  exact Ideal.ofBits_zero_f32

/-- THE AGGREGATE AT AN ENTRY: zero plus the sum, over the edges whose destination read signed is the row, of the entries
    of `X` at the clamped source row and the same column. -/
theorem agg_apply (e : Edges) (X : FVec Ideal S50000x128 .f32) (p : Fin 50000) (q : Fin 128) :
    agg e X (ix2 p q) = 0 +
      ∑ k ∈ Finset.univ.filter (fun k : Fin 600000 => (dstCol e (ix2 k (0 : Fin 1))).toInt = (p.val : Int)),
        X (ix2 ⟨min (srcCol e (ix2 k (0 : Fin 1))).toInt.toNat (50000 - 1), by omega⟩ q) := by
  unfold agg
  rw [Cert.SegmentSum.segSumRows_apply scatter_S50000x128_S600000x1_S600000x128_1_0_0_1 rfl rfl rfl rfl, zeroMat_apply]
  refine congrArg (0 + ·) (Finset.sum_congr rfl fun k _ => ?_)
  exact Cert.GatherRows.gather_rows_apply (by norm_num) gather_S50000x128_S600000x1_S600000x128_1_0_n_n_0_1_1128
    rfl rfl rfl rfl rfl rfl rfl X (srcCol e) k q

/-- The aggregate of an array of real numbers is an array of real numbers. -/
theorem isReal_agg (e : Edges) (X : FVec Ideal S50000x128 .f32) (hX : ∀ i, Cert.GcnStats.IsReal (X i)) :
    ∀ i, Cert.GcnStats.IsReal (agg e X i) := by
  intro i
  obtain ⟨p, q, rfl⟩ : ∃ (p : Fin 50000) (q : Fin 128), i = ix2 p q := ⟨i 0, i 1, eq_ix2 i⟩
  rw [agg_apply]
  exact isReal_zero.add (isReal_sum _ _ fun k _ => hX _)

/-- THE DEGREE AT A NODE: zero plus a one for every edge whose destination read signed is the node. -/
theorem degVec_apply (e : Edges) (p : Fin 50000) :
    degVec e (ix1 p) = 0 +
      ∑ _k ∈ Finset.univ.filter (fun k : Fin 600000 => (dstCol e (ix2 k (0 : Fin 1))).toInt = (p.val : Int)), (1 : EReal) := by
  unfold degVec
  rw [Cert.SegmentSum.segSumVec_apply scatter_S50000_S600000x1_S600000_n_0_0_1 rfl rfl rfl rfl, zeroVec_apply]
  refine congrArg (0 + ·) (Finset.sum_congr rfl fun k _ => ?_)
  exact Cert.SageDense.bcastOne bcast_S_S600000 (ix1 k)

/-- Every degree is a real number. -/
theorem isReal_degVec (e : Edges) (p : Fin 50000) : IsReal (degVec e (ix1 p)) := by
  rw [degVec_apply]
  exact isReal_zero.add (isReal_sum _ _ fun _ _ => isReal_one)

/-- The vector of ones reads one at every entry. -/
theorem oneVec_apply (p : Fin 50000) : oneVec (ix1 p) = 1 := Cert.SageDense.bcastOne bcast_S_S50000 (ix1 p)

/-- The factor at a node is one divided by the degree clamped below by one. -/
theorem invDeg_apply (e : Edges) (p : Fin 50000) : invDeg e (ix1 p) = Ideal.div 1 (max (degVec e (ix1 p)) 1) := by
  unfold invDeg
  rw [hostDivf_apply, maximumf_apply, oneVec_apply]

/-- The per-node factor is a column of real numbers. -/
theorem isReal_sCol (e : Edges) : ∀ i, Cert.GcnStats.IsReal (sCol e i) := by
  intro i
  obtain ⟨p, u, rfl⟩ : ∃ (p : Fin 50000) (u : Fin 1), i = ix2 p u := ⟨i 0, i 1, eq_ix2 i⟩
  show IsReal (invDeg e (ix1 p))
  rw [invDeg_apply]
  exact isReal_recip_max_one (isReal_degVec e p)

end Cert.SageBn.Host

end
-- ==== Proof.lean ====
/-
  The proof of `Cert.Claim`: a two-layer mean-aggregating graph network with a batch normalisation between the layers,
  as three kernel regions among host operations, against the same network written with host operations only.

  Both programs aggregate by the same gather and segment sum, so the aggregation stays a parameter; both scale the summed
  neighbour rows by `1 / max (degree, 1)` (one multiplies by the reciprocal, the other divides: a degree clamped below by
  one is not zero); the layer's three summands are added in different orders (addition of extended reals is commutative and
  associative).  The one difference that needs the inputs finite is the variance of the normalisation: the kernel program
  takes `max (E[y²] − μ², 0)` in one pass, the reference `E[(y − μ)²]` in two.  Under the precondition every float input
  is real, the summed neighbour rows and the reciprocal degrees are real, so the first layer's result is real everywhere,
  and for real entries the two variances agree.

  The kernel side: the run with every buffer named (`KRun`), each region's output as one function of the arrays the region
  finds (`KRegion0`, `KRegion1`, `KRegion2`), those arrays read back through the program (`KWalk`), composed in
  `KValue`.  The reference side: `RefValue`, over the generated run.  The finiteness: `Finite`, `RealAgg`.
-/
import proofs.«167860_j85383949845212_2_alg».proof.Defs
import proofs.«167860_j85383949845212_2_alg».proof.Proof.Gen.Kernel
import proofs.«167860_j85383949845212_2_alg».proof.Proof.Gen.Kernel.Frame
import proofs.«167860_j85383949845212_2_alg».proof.Proof.Gen.KernelIdeal
import proofs.«167860_j85383949845212_2_alg».proof.Proof.Gen.KernelIdeal.Frame
import proofs.«167860_j85383949845212_2_alg».proof.Proof.Gen.ReferenceIdeal
import proofs.«167860_j85383949845212_2_alg».proof.Proof.Gen.ReferenceIdeal.Run
import proofs.«167860_j85383949845212_2_alg».proof.Proof.Gen.ReferenceIdeal.Read
import proofs.«167860_j85383949845212_2_alg».proof.Proof.Gen.Pre_finite_inputs
import proofs.«167860_j85383949845212_2_alg».proof.Proof.KValue
import proofs.«167860_j85383949845212_2_alg».proof.Proof.RefValue
import proofs.«167860_j85383949845212_2_alg».proof.Proof.Finite
import proofs.«167860_j85383949845212_2_alg».proof.Proof.RealAgg
import Idealize.ShloMosaic.Adequacy
import Idealize.ShloMosaic.Init

noncomputable section

namespace Cert.Proof

open Idealize.ShloMosaic Idealize.ShloMosaic.TcCoe Idealize.SL.Sem
open Cert.SageBn Cert.SageBn.Host Cert.SageNet Cert.Dense Cert.GcnStats

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Under the precondition the first layer's result is a real number at every entry: the features, the first layer's
    weights and bias are real by the precondition, the summed neighbour rows are finite sums of features, and the factor
    is the reciprocal of a count clamped below by one. -/
theorem layer1_real (x : Mat 50000 128) (e : Edges) (wl1 : Mat 128 128) (b1 : Row 128) (wr1 : Mat 128 128)
    (ga be : Row 128) (wl2 : Mat 128 64) (b2 : Row 64) (wr2 : Mat 128 64)
    (h : Cert.Pre_finite_inputs.fn (F := Ideal) x e wl1 b1 wr1 ga be wl2 b2 wr2 = fun _ => 1#1) :
    ∀ i, IsReal (layer (agg e x) x (sCol e) wl1 wr1 (row b1) i) := by
  obtain ⟨h0, h2, h3, h4⟩ := Cert.SageBn.Finite.real_of_pre x e wl1 b1 wr1 ga be wl2 b2 wr2 h
  exact isReal_layer (agg e x) x (sCol e) wl1 wr1 (row b1) (isReal_agg e x h0) h0 (isReal_sCol e) h2 h4 (fun i => h3 _)

/-- The two networks agree under the precondition. -/
theorem result_eq (x : Mat 50000 128) (e : Edges) (wl1 : Mat 128 128) (b1 : Row 128) (wr1 : Mat 128 128)
    (ga be : Row 128) (wl2 : Mat 128 64) (b2 : Row 64) (wr2 : Mat 128 64)
    (h : Cert.Pre_finite_inputs.fn (F := Ideal) x e wl1 b1 wr1 ga be wl2 b2 wr2 = fun _ => 1#1) :
    result varOne x e wl1 b1 wr1 ga be wl2 b2 wr2 = result varTwo x e wl1 b1 wr1 ga be wl2 b2 wr2 := by
  unfold result
  exact net_one_eq_two (by norm_num) (agg e) (sCol e) x wl1 wr1 (row b1) (row ga) (row be) wl2 wr2 (row b2) nLit epsLit
    nLit_eq (layer1_real x e wl1 b1 wr1 ga be wl2 b2 wr2 h)

/-- At `Ideal` the kernel program's result buffer ends at the network with the one-pass variance of its arguments, the
    reference's at the network with the two-pass variance of arguments that agree: one array under the precondition. -/
theorem algebraic : Cert.algebraic_KernelIdeal_ReferenceIdeal := by
  intro m ρ m' ρ' hpre hagree
  refine ⟨fun c => result varOne
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact Cert.KernelIdeal.Whole.run m ρ
  · refine (θ_run Cert.ReferenceIdeal.defs _ _).mono (fun _ h c => ⟨(h c).1.trans ?_, (h c).2⟩)
      (Cert.ReferenceIdeal.Value.run (F := Ideal) m' ρ')
    rw [show Cert.ReferenceIdeal.Value.res_main_v78 (F := Ideal) m' c = Cert.ReferenceIdeal.Value.res_out0 (F := Ideal) m' c from rfl,
      Cert.ReferenceIdeal.RefValue.res_value, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    exact (result_eq _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
